-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x56x56 : Shape := ⟨4, ![16, 512, 56, 56]⟩
abbrev S16x16x9x56x56 : Shape := ⟨5, ![16, 16, 9, 56, 56]⟩
abbrev S_ : Shape := ⟨0, ![]⟩

class Facts : Prop where
  bcast_S_S16x512x56x56 : S_.BroadcastsInDim S16x512x56x56 (![] : Fin 0 → Fin S16x512x56x56.rank)
  reducesTo_S16x512x56x56_S_d0_1_2_3 : S16x512x56x56.ReducesTo [0, 1, 2, 3] S_
  h_S_ : 0 < S_.numel
  bcast_S_S16x16x9x56x56 : S_.BroadcastsInDim S16x16x9x56x56 (![] : Fin 0 → Fin S16x16x9x56x56.rank)
  reducesTo_S16x16x9x56x56_S_d0_1_2_3_4 : S16x16x9x56x56.ReducesTo [0, 1, 2, 3, 4] S_

variable [Facts]

def fn {F : FTy → Type} [FloatOps F] (main_arg0 : FVec F S16x512x56x56 .f32) (main_arg1 : FVec F S16x16x9x56x56 .f32) : IVec S_ 1 :=
  let main_v0 : FVec F S16x512x56x56 .f32 := Host.absf main_arg0
  let main_cst : FVec F S_ .f32 := constant S_ .f32 0x7F800000#32
  let main_v1 : FVec F S16x512x56x56 .f32 := broadcastInDim S16x512x56x56 ![] bcast_S_S16x512x56x56 main_cst
  let main_v2 : IVec S16x512x56x56 1 := cmpf .olt main_v0 main_v1
  let main_c : IVec S_ 1 := constantI S_ 1 1#1
  let main_v3 : IVec S_ 1 := (fun x v => Host.reduce IntOp.andi x v reducesTo_S16x512x56x56_S_d0_1_2_3 h_S_) main_v2 main_c
  let main_v4 : FVec F S16x16x9x56x56 .f32 := Host.absf main_arg1
  let main_cst_0 : FVec F S_ .f32 := constant S_ .f32 0x7F800000#32
  let main_v5 : FVec F S16x16x9x56x56 .f32 := broadcastInDim S16x16x9x56x56 ![] bcast_S_S16x16x9x56x56 main_cst_0
  let main_v6 : IVec S16x16x9x56x56 1 := cmpf .olt main_v4 main_v5
  let main_c_1 : IVec S_ 1 := constantI S_ 1 1#1
  let main_v7 : IVec S_ 1 := (fun x v => Host.reduce IntOp.andi x v reducesTo_S16x16x9x56x56_S_d0_1_2_3_4 h_S_) main_v6 main_c_1
  let main_v8 : IVec S_ 1 := andi main_v3 main_v7
  main_v8
-- ==== Kernel.lean ====
abbrev S16x512x56x56 : Shape := ⟨4, ![16, 512, 56, 56]⟩
abbrev S16x16x9x56x56 : Shape := ⟨5, ![16, 16, 9, 56, 56]⟩
abbrev S1x256x56x56 : Shape := ⟨4, ![1, 256, 56, 56]⟩
abbrev S1x16x9x56x56 : Shape := ⟨5, ![1, 16, 9, 56, 56]⟩
abbrev S1x16x56x56 : Shape := ⟨4, ![1, 16, 56, 56]⟩
abbrev S16x56x56 : Shape := ⟨3, ![16, 56, 56]⟩
abbrev S16x1x56 : Shape := ⟨3, ![16, 1, 56]⟩
abbrev S16x57x56 : Shape := ⟨3, ![16, 57, 56]⟩
abbrev S16x58x56 : Shape := ⟨3, ![16, 58, 56]⟩
abbrev S16x58x1 : Shape := ⟨3, ![16, 58, 1]⟩
abbrev S16x58x57 : Shape := ⟨3, ![16, 58, 57]⟩
abbrev S16x58x58 : Shape := ⟨3, ![16, 58, 58]⟩
abbrev S1x16x1x56x56 : Shape := ⟨5, ![1, 16, 1, 56, 56]⟩

abbrev nBuf : Space → Nat
  | .hbm => 3
  | .vmem => 6
  | .smem => 0
  | _ => 0

abbrev bufTy : (tb : Table) → Fin (tcTables nBuf tb) → BufTy
  | .hbm, ⟨0, _⟩ => ⟨S16x512x56x56, .f32⟩
  | .hbm, ⟨1, _⟩ => ⟨S16x16x9x56x56, .f32⟩
  | .hbm, ⟨2, _⟩ => ⟨S16x512x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S1x16x9x56x56, .f32⟩
  | .local _ .vmem, ⟨3, _⟩ => ⟨S1x16x9x56x56, .f32⟩
  | .local _ .vmem, ⟨4, _⟩ => ⟨S1x256x56x56, .f32⟩
  | .local _ .vmem, ⟨5, _⟩ => ⟨S1x256x56x56, .f32⟩
  | _, _ => ⟨S16x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32_1 : BitVec 32 := 16#32
  let v1 : BitVec 32 := Scalar.muli arg5 c16_i32_1
  v1
def k0_off1 (k0_t1 : Fin k0_t1_loop.trips) : Fin 4 → Nat :=
  let c0 : Index := 0#32
  let c0_i32 : BitVec 32 := 0#32
  let c1_i32 : BitVec 32 := 1#32
  let arg5 : BitVec 32 := Scf.iv c0_i32 c1_i32 k0_t1
  let c16_i32_1 : BitVec 32 := 16#32
  let v1 : BitVec 32 := Scalar.muli arg5 c16_i32_1
  let v2 : BitVec 32 := v1
  let v3 : Index := Scalar.indexCast v2
  let c0_2 : Index := 0#32
  let c0_3 : Index := 0#32
  ![0, v3.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x9x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S1x16x56x56 : 0 < S1x16x56x56.numel
  shapeCasts_S1x16x56x56_S16x56x56 : S1x16x56x56.ShapeCasts S16x56x56
  concatenates_S16x1x56_S16x56x56_S16x57x56_d1 : Shape.Concatenates [S16x1x56, S16x56x56] S16x57x56 1
  concatenates_S16x57x56_S16x1x56_S16x58x56_d1 : Shape.Concatenates [S16x57x56, S16x1x56] S16x58x56 1
  concatenates_S16x58x1_S16x58x56_S16x58x57_d2 : Shape.Concatenates [S16x58x1, S16x58x56] S16x58x57 2
  concatenates_S16x58x57_S16x58x1_S16x58x58_d2 : Shape.Concatenates [S16x58x57, S16x58x1] S16x58x58 2
  slices_S16x58x58_o0_0_0_S16x56x56 : S16x58x58.Slices ![0, 0, 0] S16x56x56
  inb_S1x16x9x56x56_S1x16x1x56x56_0_0_0_0_0 : ∀ a, (![0, 0, 0, 0, 0] : Fin 5 → Nat) a + S1x16x1x56x56.size a ≤ S1x16x9x56x56.size a
  h_S1x16x1x56x56 : 0 < S1x16x1x56x56.numel
  shapeCasts_S1x16x1x56x56_S16x56x56 : S1x16x1x56x56.ShapeCasts S16x56x56
  slices_S16x58x58_o0_0_1_S16x56x56 : S16x58x58.Slices ![0, 0, 1] S16x56x56
  inb_S1x16x9x56x56_S1x16x1x56x56_0_0_1_0_0 : ∀ a, (![0, 0, 1, 0, 0] : Fin 5 → Nat) a + S1x16x1x56x56.size a ≤ S1x16x9x56x56.size a
  slices_S16x58x58_o0_0_2_S16x56x56 : S16x58x58.Slices ![0, 0, 2] S16x56x56
  inb_S1x16x9x56x56_S1x16x1x56x56_0_0_2_0_0 : ∀ a, (![0, 0, 2, 0, 0] : Fin 5 → Nat) a + S1x16x1x56x56.size a ≤ S1x16x9x56x56.size a
  slices_S16x58x58_o0_1_0_S16x56x56 : S16x58x58.Slices ![0, 1, 0] S16x56x56
  inb_S1x16x9x56x56_S1x16x1x56x56_0_0_3_0_0 : ∀ a, (![0, 0, 3, 0, 0] : Fin 5 → Nat) a + S1x16x1x56x56.size a ≤ S1x16x9x56x56.size a
  slices_S16x58x58_o0_1_1_S16x56x56 : S16x58x58.Slices ![0, 1, 1] S16x56x56
  inb_S1x16x9x56x56_S1x16x1x56x56_0_0_4_0_0 : ∀ a, (![0, 0, 4, 0, 0] : Fin 5 → Nat) a + S1x16x1x56x56.size a ≤ S1x16x9x56x56.size a
  slices_S16x58x58_o0_1_2_S16x56x56 : S16x58x58.Slices ![0, 1, 2] S16x56x56
  inb_S1x16x9x56x56_S1x16x1x56x56_0_0_5_0_0 : ∀ a, (![0, 0, 5, 0, 0] : Fin 5 → Nat) a + S1x16x1x56x56.size a ≤ S1x16x9x56x56.size a
  slices_S16x58x58_o0_2_0_S16x56x56 : S16x58x58.Slices ![0, 2, 0] S16x56x56
  inb_S1x16x9x56x56_S1x16x1x56x56_0_0_6_0_0 : ∀ a, (![0, 0, 6, 0, 0] : Fin 5 → Nat) a + S1x16x1x56x56.size a ≤ S1x16x9x56x56.size a
  slices_S16x58x58_o0_2_1_S16x56x56 : S16x58x58.Slices ![0, 2, 1] S16x56x56
  inb_S1x16x9x56x56_S1x16x1x56x56_0_0_7_0_0 : ∀ a, (![0, 0, 7, 0, 0] : Fin 5 → Nat) a + S1x16x1x56x56.size a ≤ S1x16x9x56x56.size a
  slices_S16x58x58_o0_2_2_S16x56x56 : S16x58x58.Slices ![0, 2, 2] S16x56x56
  inb_S1x16x9x56x56_S1x16x1x56x56_0_0_8_0_0 : ∀ a, (![0, 0, 8, 0, 0] : Fin 5 → Nat) a + S1x16x1x56x56.size a ≤ S1x16x9x56x56.size a
  shapeCasts_S16x56x56_S1x16x56x56 : S16x56x56.ShapeCasts S1x16x56x56
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x16x56x56.size a ≤ S1x256x56x56.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S16x512x56x56.size a
  hwx0_0 : ∀ i : grid0.Coords, EltTy.bits .f32 = 32 ∨ (Rect.block (s := S16x512x56x56) S1x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x9x56x56.size a ≤ S16x16x9x56x56.size a
  hwx0_1 : ∀ i : grid0.Coords, EltTy.bits .f32 = 32 ∨ (Rect.block (s := S16x16x9x56x56) S1x16x9x56x56.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x56x56.size a ≤ S16x512x56x56.size a
  hwx0_2 : ∀ i : grid0.Coords, EltTy.bits .f32 = 32 ∨ (Rect.block (s := S16x512x56x56) S1x256x56x56.size (cc0_transform_2 i) (hinb0_2 i)).WholeWords (EltTy.packing .f32)

variable [Facts₀]

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x9x56x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x56x56 : Shape := ⟨4, ![16, 512, 56, 56]⟩
abbrev S16x16x9x56x56 : Shape := ⟨5, ![16, 16, 9, 56, 56]⟩
abbrev S16x32x16x56x56 : Shape := ⟨5, ![16, 32, 16, 56, 56]⟩
abbrev S_ : Shape := ⟨0, ![]⟩
abbrev S16x32x16x58x58 : Shape := ⟨5, ![16, 32, 16, 58, 58]⟩
abbrev S16x16x1x56x56 : Shape := ⟨5, ![16, 16, 1, 56, 56]⟩
abbrev S16x16x56x56 : Shape := ⟨4, ![16, 16, 56, 56]⟩
abbrev S16x1x16x56x56 : Shape := ⟨5, ![16, 1, 16, 56, 56]⟩

abbrev nBuf : Space → Nat
  | .hbm => 72
  | .vmem => 0
  | .smem => 0
  | _ => 0

abbrev bufTy : (tb : Table) → Fin (tcTables nBuf tb) → BufTy
  | .hbm, ⟨0, _⟩ => ⟨S16x512x56x56, .f32⟩
  | .hbm, ⟨1, _⟩ => ⟨S16x16x9x56x56, .f32⟩
  | .hbm, ⟨2, _⟩ => ⟨S16x32x16x56x56, .f32⟩
  | .hbm, ⟨3, _⟩ => ⟨S_, .i32⟩
  | .hbm, ⟨4, _⟩ => ⟨S_, .f32⟩
  | .hbm, ⟨5, _⟩ => ⟨S16x32x16x58x58, .f32⟩
  | .hbm, ⟨6, _⟩ => ⟨S_, .f32⟩
  | .hbm, ⟨7, _⟩ => ⟨S16x32x16x56x56, .f32⟩
  | .hbm, ⟨8, _⟩ => ⟨S16x32x16x56x56, .f32⟩
  | .hbm, ⟨9, _⟩ => ⟨S16x16x1x56x56, .f32⟩
  | .hbm, ⟨10, _⟩ => ⟨S16x16x56x56, .f32⟩
  | .hbm, ⟨11, _⟩ => ⟨S16x1x16x56x56, .f32⟩
  | .hbm, ⟨12, _⟩ => ⟨S16x32x16x56x56, .f32⟩
  | .hbm, ⟨13, _⟩ => ⟨S16x32x16x56x56, .f32⟩
  | .hbm, ⟨14, _⟩ => ⟨S16x32x16x56x56, .f32⟩
  | .hbm, ⟨15, _⟩ => ⟨S16x32x16x56x56, .f32⟩
  | .hbm, ⟨16, _⟩ => ⟨S16x16x1x56x56, .f32⟩
  | .hbm, ⟨17, _⟩ => ⟨S16x16x56x56, .f32⟩
  | .hbm, ⟨18, _⟩ => ⟨S16x1x16x56x56, .f32⟩
  | .hbm, ⟨19, _⟩ => ⟨S16x32x16x56x56, .f32⟩
  | .hbm, ⟨20, _⟩ => ⟨S16x32x16x56x56, .f32⟩
  | .hbm, ⟨21, _⟩ => ⟨S16x32x16x56x56, .f32⟩
  | .hbm, ⟨22, _⟩ => ⟨S16x32x16x56x56, .f32⟩
  | .hbm, ⟨23, _⟩ => ⟨S16x16x1x56x56, .f32⟩
  | .hbm, ⟨24, _⟩ => ⟨S16x16x56x56, .f32⟩
  | .hbm, ⟨25, _⟩ => ⟨S16x1x16x56x56, .f32⟩
  | .hbm, ⟨26, _⟩ => ⟨S16x32x16x56x56, .f32⟩
  | .hbm, ⟨27, _⟩ => ⟨S16x32x16x56x56, .f32⟩
  | .hbm, ⟨28, _⟩ => ⟨S16x32x16x56x56, .f32⟩
  | .hbm, ⟨29, _⟩ => ⟨S16x32x16x56x56, .f32⟩
  | .hbm, ⟨30, _⟩ => ⟨S16x16x1x56x56, .f32⟩
  | .hbm, ⟨31, _⟩ => ⟨S16x16x56x56, .f32⟩
  | .hbm, ⟨32, _⟩ => ⟨S16x1x16x56x56, .f32⟩
  | .hbm, ⟨33, _⟩ => ⟨S16x32x16x56x56, .f32⟩
  | .hbm, ⟨34, _⟩ => ⟨S16x32x16x56x56, .f32⟩
  | .hbm, ⟨35, _⟩ => ⟨S16x32x16x56x56, .f32⟩
  | .hbm, ⟨36, _⟩ => ⟨S16x32x16x56x56, .f32⟩
  | .hbm, ⟨37, _⟩ => ⟨S16x16x1x56x56, .f32⟩
  | .hbm, ⟨38, _⟩ => ⟨S16x16x56x56, .f32⟩
  | .hbm, ⟨39, _⟩ => ⟨S16x1x16x56x56, .f32⟩
  | .hbm, ⟨40, _⟩ => ⟨S16x32x16x56x56, .f32⟩
  | .hbm, ⟨41, _⟩ => ⟨S16x32x16x56x56, .f32⟩
  | .hbm, ⟨42, _⟩ => ⟨S16x32x16x56x56, .f32⟩
  | .hbm, ⟨43, _⟩ => ⟨S16x32x16x56x56, .f32⟩
  | .hbm, ⟨44, _⟩ => ⟨S16x16x1x56x56, .f32⟩
  | .hbm, ⟨45, _⟩ => ⟨S16x16x56x56, .f32⟩
  | .hbm, ⟨46, _⟩ => ⟨S16x1x16x56x56, .f32⟩
  | .hbm, ⟨47, _⟩ => ⟨S16x32x16x56x56, .f32⟩
  | .hbm, ⟨48, _⟩ => ⟨S16x32x16x56x56, .f32⟩
  | .hbm, ⟨49, _⟩ => ⟨S16x32x16x56x56, .f32⟩
  | .hbm, ⟨50, _⟩ => ⟨S16x32x16x56x56, .f32⟩
  | .hbm, ⟨51, _⟩ => ⟨S16x16x1x56x56, .f32⟩
  | .hbm, ⟨52, _⟩ => ⟨S16x16x56x56, .f32⟩
  | .hbm, ⟨53, _⟩ => ⟨S16x1x16x56x56, .f32⟩
  | .hbm, ⟨54, _⟩ => ⟨S16x32x16x56x56, .f32⟩
  | .hbm, ⟨55, _⟩ => ⟨S16x32x16x56x56, .f32⟩
  | .hbm, ⟨56, _⟩ => ⟨S16x32x16x56x56, .f32⟩
  | .hbm, ⟨57, _⟩ => ⟨S16x32x16x56x56, .f32⟩
  | .hbm, ⟨58, _⟩ => ⟨S16x16x1x56x56, .f32⟩
  | .hbm, ⟨59, _⟩ => ⟨S16x16x56x56, .f32⟩
  | .hbm, ⟨60, _⟩ => ⟨S16x1x16x56x56, .f32⟩
  | .hbm, ⟨61, _⟩ => ⟨S16x32x16x56x56, .f32⟩
  | .hbm, ⟨62, _⟩ => ⟨S16x32x16x56x56, .f32⟩
  | .hbm, ⟨63, _⟩ => ⟨S16x32x16x56x56, .f32⟩
  | .hbm, ⟨64, _⟩ => ⟨S16x32x16x56x56, .f32⟩
  | .hbm, ⟨65, _⟩ => ⟨S16x16x1x56x56, .f32⟩
  | .hbm, ⟨66, _⟩ => ⟨S16x16x56x56, .f32⟩
  | .hbm, ⟨67, _⟩ => ⟨S16x1x16x56x56, .f32⟩
  | .hbm, ⟨68, _⟩ => ⟨S16x32x16x56x56, .f32⟩
  | .hbm, ⟨69, _⟩ => ⟨S16x32x16x56x56, .f32⟩
  | .hbm, ⟨70, _⟩ => ⟨S16x32x16x56x56, .f32⟩
  | .hbm, ⟨71, _⟩ => ⟨S16x512x56x56, .f32⟩
  | _, _ => ⟨S16x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩

abbrev nD : Nat := 1
abbrev τ : Topo := Topo.v7x

variable {F : FTy → Type} [FloatOps F]

class Facts₀ : Prop where
  shapeCasts_S16x512x56x56_S16x32x16x56x56 : S16x512x56x56.ShapeCasts S16x32x16x56x56
  pads_S16x32x16x56x56_S16x32x16x58x58_000_000_000_110_110 : S16x32x16x56x56.Pads (![0, 0, 0, 1, 1] : Fin 5 → Nat) ![0, 0, 0, 1, 1] ![0, 0, 0, 0, 0] S16x32x16x58x58
  h_S_ : 0 < S_.numel
  bcast_S_S16x32x16x56x56 : S_.BroadcastsInDim S16x32x16x56x56 (![] : Fin 0 → Fin S16x32x16x56x56.rank)
  slices_S16x32x16x58x58_S16x32x16x56x56_0_0_0_0_0 : S16x32x16x58x58.Slices ![0, 0, 0, 0, 0] S16x32x16x56x56
  slices_S16x16x9x56x56_S16x16x1x56x56_0_0_0_0_0 : S16x16x9x56x56.Slices ![0, 0, 0, 0, 0] S16x16x1x56x56
  shapeCasts_S16x16x1x56x56_S16x16x56x56 : S16x16x1x56x56.ShapeCasts S16x16x56x56
  bcast_S16x16x56x56_S16x1x16x56x56_0_2_3_4 : S16x16x56x56.BroadcastsInDim S16x1x16x56x56 (![0, 2, 3, 4] : Fin 4 → Fin S16x1x16x56x56.rank)
  bcast_S16x1x16x56x56_S16x32x16x56x56_0_1_2_3_4 : S16x1x16x56x56.BroadcastsInDim S16x32x16x56x56 (![0, 1, 2, 3, 4] : Fin 5 → Fin S16x32x16x56x56.rank)
  slices_S16x32x16x58x58_S16x32x16x56x56_0_0_0_0_1 : S16x32x16x58x58.Slices ![0, 0, 0, 0, 1] S16x32x16x56x56
  slices_S16x16x9x56x56_S16x16x1x56x56_0_0_1_0_0 : S16x16x9x56x56.Slices ![0, 0, 1, 0, 0] S16x16x1x56x56
  slices_S16x32x16x58x58_S16x32x16x56x56_0_0_0_0_2 : S16x32x16x58x58.Slices ![0, 0, 0, 0, 2] S16x32x16x56x56
  slices_S16x16x9x56x56_S16x16x1x56x56_0_0_2_0_0 : S16x16x9x56x56.Slices ![0, 0, 2, 0, 0] S16x16x1x56x56
  slices_S16x32x16x58x58_S16x32x16x56x56_0_0_0_1_0 : S16x32x16x58x58.Slices ![0, 0, 0, 1, 0] S16x32x16x56x56
  slices_S16x16x9x56x56_S16x16x1x56x56_0_0_3_0_0 : S16x16x9x56x56.Slices ![0, 0, 3, 0, 0] S16x16x1x56x56
  slices_S16x32x16x58x58_S16x32x16x56x56_0_0_0_1_1 : S16x32x16x58x58.Slices ![0, 0, 0, 1, 1] S16x32x16x56x56
  slices_S16x16x9x56x56_S16x16x1x56x56_0_0_4_0_0 : S16x16x9x56x56.Slices ![0, 0, 4, 0, 0] S16x16x1x56x56
  slices_S16x32x16x58x58_S16x32x16x56x56_0_0_0_1_2 : S16x32x16x58x58.Slices ![0, 0, 0, 1, 2] S16x32x16x56x56
  slices_S16x16x9x56x56_S16x16x1x56x56_0_0_5_0_0 : S16x16x9x56x56.Slices ![0, 0, 5, 0, 0] S16x16x1x56x56
  slices_S16x32x16x58x58_S16x32x16x56x56_0_0_0_2_0 : S16x32x16x58x58.Slices ![0, 0, 0, 2, 0] S16x32x16x56x56
  slices_S16x16x9x56x56_S16x16x1x56x56_0_0_6_0_0 : S16x16x9x56x56.Slices ![0, 0, 6, 0, 0] S16x16x1x56x56
  slices_S16x32x16x58x58_S16x32x16x56x56_0_0_0_2_1 : S16x32x16x58x58.Slices ![0, 0, 0, 2, 1] S16x32x16x56x56
  slices_S16x16x9x56x56_S16x16x1x56x56_0_0_7_0_0 : S16x16x9x56x56.Slices ![0, 0, 7, 0, 0] S16x16x1x56x56
  slices_S16x32x16x58x58_S16x32x16x56x56_0_0_0_2_2 : S16x32x16x58x58.Slices ![0, 0, 0, 2, 2] S16x32x16x56x56
  slices_S16x16x9x56x56_S16x16x1x56x56_0_0_8_0_0 : S16x16x9x56x56.Slices ![0, 0, 8, 0, 0] S16x16x1x56x56
  shapeCasts_S16x32x16x56x56_S16x512x56x56 : S16x32x16x56x56.ShapeCasts S16x512x56x56

variable [Facts₀]

class Facts : Prop extends Facts₀ where

variable [Facts]
-- ==== Proof.BitsTrips.lean ====
/-
  The pieces the loop of the kernel body leaves in the output's staging buffer, in closed form.  Trip `k` of the
  16 loads channels `16k … 16k + 15` of the staged input block and the nine weight planes of the staged weight
  block, and stores ONE piece: through the rectangle of channels `16k … 16k + 15` of the output block, the
  body's arithmetic (`k0_pay5` over `k0_pay1 … k0_pay4`) of those loads.  The piece does not depend on what
  the output's buffer held before, although the region also loads that rectangle back (the value is unused).
  So the pieces of the trips before `n` are the list `pieces x0 x1 n`, whatever the buffer's contents at loop entry.
-/
import proofs.«176877_j1013612282168_2_alg».proof.Proof.Gen.Kernel.Loops
import Idealize.ShloMosaic.Lib.Pipeline.FrameBody

noncomputable section

namespace Cert.Kernel.Body

open Cert.Kernel Cert.Kernel.Gen
open Idealize.ShloMosaic Idealize.ShloMosaic.TcCoe Idealize.ShloMosaic.Tactic
open Idealize.SL Idealize.SL.Sem

variable {F : FTy → Type} [FloatOps F]

/-- What trip `k` stores, as a function of the two staged blocks: the body's arithmetic of the trip's 16 input
    channels and of the nine weight planes. -/
def tripPay (x0 : Vec F S1x256x56x56 .f32) (x1 : Vec F S1x16x9x56x56 .f32) (k : Fin k0_t1_loop.trips) : FVec F S1x16x56x56 .f32 :=
  k0_pay5
    (k0_pay1 (View.ld x0 (Rect.unit (s := S1x256x56x56) (k0_off1 k) S1x16x56x56.size (Facts₀.k0_off1_inb k))))
    (k0_pay2 (View.ld x0 (Rect.unit (s := S1x256x56x56) (k0_off1 k) S1x16x56x56.size (Facts₀.k0_off1_inb k)))
      (View.ld x1 (Rect.unit (s := S1x16x9x56x56) ![0, 0, 0, 0, 0] S1x16x1x56x56.size Facts₀.inb_S1x16x9x56x56_S1x16x1x56x56_0_0_0_0_0))
      (View.ld x1 (Rect.unit (s := S1x16x9x56x56) ![0, 0, 1, 0, 0] S1x16x1x56x56.size Facts₀.inb_S1x16x9x56x56_S1x16x1x56x56_0_0_1_0_0))
      (View.ld x1 (Rect.unit (s := S1x16x9x56x56) ![0, 0, 2, 0, 0] S1x16x1x56x56.size Facts₀.inb_S1x16x9x56x56_S1x16x1x56x56_0_0_2_0_0)))
    (k0_pay3 (View.ld x0 (Rect.unit (s := S1x256x56x56) (k0_off1 k) S1x16x56x56.size (Facts₀.k0_off1_inb k))))
    (k0_pay4 (View.ld x1 (Rect.unit (s := S1x16x9x56x56) ![0, 0, 3, 0, 0] S1x16x1x56x56.size Facts₀.inb_S1x16x9x56x56_S1x16x1x56x56_0_0_3_0_0)))
    (View.ld x1 (Rect.unit (s := S1x16x9x56x56) ![0, 0, 4, 0, 0] S1x16x1x56x56.size Facts₀.inb_S1x16x9x56x56_S1x16x1x56x56_0_0_4_0_0))
    (View.ld x1 (Rect.unit (s := S1x16x9x56x56) ![0, 0, 5, 0, 0] S1x16x1x56x56.size Facts₀.inb_S1x16x9x56x56_S1x16x1x56x56_0_0_5_0_0))
    (View.ld x1 (Rect.unit (s := S1x16x9x56x56) ![0, 0, 6, 0, 0] S1x16x1x56x56.size Facts₀.inb_S1x16x9x56x56_S1x16x1x56x56_0_0_6_0_0))
    (View.ld x1 (Rect.unit (s := S1x16x9x56x56) ![0, 0, 7, 0, 0] S1x16x1x56x56.size Facts₀.inb_S1x16x9x56x56_S1x16x1x56x56_0_0_7_0_0))
    (View.ld x1 (Rect.unit (s := S1x16x9x56x56) ![0, 0, 8, 0, 0] S1x16x1x56x56.size Facts₀.inb_S1x16x9x56x56_S1x16x1x56x56_0_0_8_0_0))

/-- Trip `k`'s one piece: `tripPay` through the rectangle of channels `16k … 16k + 15`. -/
def tripPiece (x0 : Vec F S1x256x56x56 .f32) (x1 : Vec F S1x16x9x56x56 .f32) (k : Fin k0_t1_loop.trips) :
    View.Piece (Elt F) S1x256x56x56 .f32 :=
  ⟨Rect.unit (s := S1x256x56x56) (k0_off1 k) S1x16x56x56.size (Facts₀.k0_off1_inb k), tripPay x0 x1 k⟩

/-- The pieces of the trips before `n`, last first. -/
def pieces (x0 : Vec F S1x256x56x56 .f32) (x1 : Vec F S1x16x9x56x56 .f32) : ℕ → List (View.Piece (Elt F) S1x256x56x56 .f32)
  | 0 => []
  | n + 1 => if h : n < k0_t1_loop.trips then tripPiece x0 x1 ⟨n, h⟩ :: pieces x0 x1 n else pieces x0 x1 n

/-- ONE TRIP'S PIECES, read off the trip's run: on staging memrefs holding the blocks `x0`, `x1`, trip `k` leaves
    its one piece `tripPiece x0 x1 k`, whatever the output's buffer holds. -/
theorem tripL_eq (𝒱 : Variants) (c : Dev nD) (bd : Option 𝒱.V) (i : grid0.Coords)
    (arg2 : Memref sig .tc .vmem S1x256x56x56 .f32) (harg2 : arg2.IsWhole) (arg3 : Memref sig .tc .vmem S1x16x9x56x56 .f32) (harg3 : arg3.IsWhole)
    (arg4 : Memref sig .tc .vmem S1x256x56x56 .f32) (harg4 : arg4.IsWhole)
    (x0 : Vec F S1x256x56x56 .f32) (x1 : Vec F S1x16x9x56x56 .f32) (k : Fin k0_t1_loop.trips) (f : BufTy.Contents (Elt F) arg4.view.ty) :
    tripL_k0_t1 (F := F) 𝒱 c bd i arg2 harg2 arg3 harg3 arg4 harg4 (harg2.unread x0) (harg3.unread x1) k f = [tripPiece x0 x1 k] := by
  unfold tripL_k0_t1 trip_k0_t1
  dsimp only
  sl_unfold_run_names
  simp only [View.readAt_eq_ld, harg2.read_unread, harg3.read_unread]
  rfl

/-- THE PIECES BEFORE TRIP `n` are `pieces x0 x1 n`, whatever the output's buffer held at loop entry. -/
theorem pb_eq (𝒱 : Variants) (c : Dev nD) (bd : Option 𝒱.V) (i : grid0.Coords)
    (arg2 : Memref sig .tc .vmem S1x256x56x56 .f32) (harg2 : arg2.IsWhole) (arg3 : Memref sig .tc .vmem S1x16x9x56x56 .f32) (harg3 : arg3.IsWhole)
    (arg4 : Memref sig .tc .vmem S1x256x56x56 .f32) (harg4 : arg4.IsWhole)
    (x0 : Vec F S1x256x56x56 .f32) (x1 : Vec F S1x16x9x56x56 .f32) (G : BufTy.Contents (Elt F) arg4.view.ty) :
    ∀ n : ℕ, pb_k0_t1 (F := F) 𝒱 c bd i arg2 harg2 arg3 harg3 arg4 harg4 (harg2.unread x0) (harg3.unread x1) G n = pieces x0 x1 n
  | 0 => rfl
  | n + 1 => by
    rw [pb_k0_t1.eq_2, pieces]
    unfold pb_k0_t1Step
    by_cases h : n < k0_t1_loop.trips
    · rw [dif_pos h, dif_pos h, tripL_eq, pb_eq 𝒱 c bd i arg2 harg2 arg3 harg3 arg4 harg4 x0 x1 G n]; rfl
    · rw [dif_neg h, dif_neg h, pb_eq 𝒱 c bd i arg2 harg2 arg3 harg3 arg4 harg4 x0 x1 G n]

end Cert.Kernel.Body

end
-- ==== Proof.IdealTrips.lean ====
/-
  The pieces the loop of the kernel body leaves in the output's staging buffer, in closed form.  Trip `k` of the
  16 loads channels `16k … 16k + 15` of the staged input block and the nine weight planes of the staged weight
  block, and stores ONE piece: through the rectangle of channels `16k … 16k + 15` of the output block, the
  body's arithmetic (`k0_pay5` over `k0_pay1 … k0_pay4`) of those loads.  The piece does not depend on what
  the output's buffer held before, although the region also loads that rectangle back (the value is unused).
  So the pieces of the trips before `n` are the list `pieces x0 x1 n`, whatever the buffer's contents at loop entry.
-/
import proofs.«176877_j1013612282168_2_alg».proof.Proof.Gen.KernelIdeal.Loops
import Idealize.ShloMosaic.Lib.Pipeline.FrameBody

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- What trip `k` stores, as a function of the two staged blocks: the body's arithmetic of the trip's 16 input
    channels and of the nine weight planes. -/
def tripPay (x0 : Vec F S1x256x56x56 .f32) (x1 : Vec F S1x16x9x56x56 .f32) (k : Fin k0_t1_loop.trips) : FVec F S1x16x56x56 .f32 :=
  k0_pay5
    (k0_pay1 (View.ld x0 (Rect.unit (s := S1x256x56x56) (k0_off1 k) S1x16x56x56.size (Facts₀.k0_off1_inb k))))
    (k0_pay2 (View.ld x0 (Rect.unit (s := S1x256x56x56) (k0_off1 k) S1x16x56x56.size (Facts₀.k0_off1_inb k)))
      (View.ld x1 (Rect.unit (s := S1x16x9x56x56) ![0, 0, 0, 0, 0] S1x16x1x56x56.size Facts₀.inb_S1x16x9x56x56_S1x16x1x56x56_0_0_0_0_0))
      (View.ld x1 (Rect.unit (s := S1x16x9x56x56) ![0, 0, 1, 0, 0] S1x16x1x56x56.size Facts₀.inb_S1x16x9x56x56_S1x16x1x56x56_0_0_1_0_0))
      (View.ld x1 (Rect.unit (s := S1x16x9x56x56) ![0, 0, 2, 0, 0] S1x16x1x56x56.size Facts₀.inb_S1x16x9x56x56_S1x16x1x56x56_0_0_2_0_0)))
    (k0_pay3 (View.ld x0 (Rect.unit (s := S1x256x56x56) (k0_off1 k) S1x16x56x56.size (Facts₀.k0_off1_inb k))))
    (k0_pay4 (View.ld x1 (Rect.unit (s := S1x16x9x56x56) ![0, 0, 3, 0, 0] S1x16x1x56x56.size Facts₀.inb_S1x16x9x56x56_S1x16x1x56x56_0_0_3_0_0)))
    (View.ld x1 (Rect.unit (s := S1x16x9x56x56) ![0, 0, 4, 0, 0] S1x16x1x56x56.size Facts₀.inb_S1x16x9x56x56_S1x16x1x56x56_0_0_4_0_0))
    (View.ld x1 (Rect.unit (s := S1x16x9x56x56) ![0, 0, 5, 0, 0] S1x16x1x56x56.size Facts₀.inb_S1x16x9x56x56_S1x16x1x56x56_0_0_5_0_0))
    (View.ld x1 (Rect.unit (s := S1x16x9x56x56) ![0, 0, 6, 0, 0] S1x16x1x56x56.size Facts₀.inb_S1x16x9x56x56_S1x16x1x56x56_0_0_6_0_0))
    (View.ld x1 (Rect.unit (s := S1x16x9x56x56) ![0, 0, 7, 0, 0] S1x16x1x56x56.size Facts₀.inb_S1x16x9x56x56_S1x16x1x56x56_0_0_7_0_0))
    (View.ld x1 (Rect.unit (s := S1x16x9x56x56) ![0, 0, 8, 0, 0] S1x16x1x56x56.size Facts₀.inb_S1x16x9x56x56_S1x16x1x56x56_0_0_8_0_0))

/-- Trip `k`'s one piece: `tripPay` through the rectangle of channels `16k … 16k + 15`. -/
def tripPiece (x0 : Vec F S1x256x56x56 .f32) (x1 : Vec F S1x16x9x56x56 .f32) (k : Fin k0_t1_loop.trips) :
    View.Piece (Elt F) S1x256x56x56 .f32 :=
  ⟨Rect.unit (s := S1x256x56x56) (k0_off1 k) S1x16x56x56.size (Facts₀.k0_off1_inb k), tripPay x0 x1 k⟩

/-- The pieces of the trips before `n`, last first. -/
def pieces (x0 : Vec F S1x256x56x56 .f32) (x1 : Vec F S1x16x9x56x56 .f32) : ℕ → List (View.Piece (Elt F) S1x256x56x56 .f32)
  | 0 => []
  | n + 1 => if h : n < k0_t1_loop.trips then tripPiece x0 x1 ⟨n, h⟩ :: pieces x0 x1 n else pieces x0 x1 n

/-- ONE TRIP'S PIECES, read off the trip's run: on staging memrefs holding the blocks `x0`, `x1`, trip `k` leaves
    its one piece `tripPiece x0 x1 k`, whatever the output's buffer holds. -/
theorem tripL_eq (𝒱 : Variants) (c : Dev nD) (bd : Option 𝒱.V) (i : grid0.Coords)
    (arg2 : Memref sig .tc .vmem S1x256x56x56 .f32) (harg2 : arg2.IsWhole) (arg3 : Memref sig .tc .vmem S1x16x9x56x56 .f32) (harg3 : arg3.IsWhole)
    (arg4 : Memref sig .tc .vmem S1x256x56x56 .f32) (harg4 : arg4.IsWhole)
    (x0 : Vec F S1x256x56x56 .f32) (x1 : Vec F S1x16x9x56x56 .f32) (k : Fin k0_t1_loop.trips) (f : BufTy.Contents (Elt F) arg4.view.ty) :
    tripL_k0_t1 (F := F) 𝒱 c bd i arg2 harg2 arg3 harg3 arg4 harg4 (harg2.unread x0) (harg3.unread x1) k f = [tripPiece x0 x1 k] := by
  unfold tripL_k0_t1 trip_k0_t1
  dsimp only
  sl_unfold_run_names
  simp only [View.readAt_eq_ld, harg2.read_unread, harg3.read_unread]
  rfl

/-- THE PIECES BEFORE TRIP `n` are `pieces x0 x1 n`, whatever the output's buffer held at loop entry. -/
theorem pb_eq (𝒱 : Variants) (c : Dev nD) (bd : Option 𝒱.V) (i : grid0.Coords)
    (arg2 : Memref sig .tc .vmem S1x256x56x56 .f32) (harg2 : arg2.IsWhole) (arg3 : Memref sig .tc .vmem S1x16x9x56x56 .f32) (harg3 : arg3.IsWhole)
    (arg4 : Memref sig .tc .vmem S1x256x56x56 .f32) (harg4 : arg4.IsWhole)
    (x0 : Vec F S1x256x56x56 .f32) (x1 : Vec F S1x16x9x56x56 .f32) (G : BufTy.Contents (Elt F) arg4.view.ty) :
    ∀ n : ℕ, pb_k0_t1 (F := F) 𝒱 c bd i arg2 harg2 arg3 harg3 arg4 harg4 (harg2.unread x0) (harg3.unread x1) G n = pieces x0 x1 n
  | 0 => rfl
  | n + 1 => by
    rw [pb_k0_t1.eq_2, pieces]
    unfold pb_k0_t1Step
    by_cases h : n < k0_t1_loop.trips
    · rw [dif_pos h, dif_pos h, tripL_eq, pb_eq 𝒱 c bd i arg2 harg2 arg3 harg3 arg4 harg4 x0 x1 G n]; rfl
    · rw [dif_neg h, dif_neg h, pb_eq 𝒱 c bd i arg2 harg2 arg3 harg3 arg4 harg4 x0 x1 G n]

end Cert.KernelIdeal.Body

end
-- ==== Proof.Spec.lean ====
/-
  The specification.  The result is a 3×3 per-pixel weighted sum of the input's zero-padded planes:
  for batch `b`, channel `c = 16·g + cg` (group `g`, channel-in-group `cg`) and pixel `(h, w)`,

      out[b, c, h, w] = zero + Σ_{k = 3·di + dj, in the order k = 0 … 8}  P[b, c, di + h, dj + w] · wt[b, cg, k, h, w]

  where `P` is the 58 × 58 plane obtained from the 56 × 56 plane `x[b, c]` by one ring of the padding value,
  the sum is taken left to right starting from `zero`, and the weight does not depend on the group.
  The padding value and the initial value of the sum are parameters: both programs spell them by the same
  words, and nothing here depends on what they denote.
-/
import Idealize.ShloMosaic.PureOps.Ideal
import Idealize.ShloMosaic.Lib.ValueIdx

noncomputable section

namespace Cert.Spec

open Idealize.ShloMosaic Idealize.ShloMosaic.ValueIdx

/-- The input's shape `[16, 512, 56, 56]` and the weights' shape `[16, 16, 9, 56, 56]`. -/
abbrev SX : Shape := ⟨4, ![16, 512, 56, 56]⟩
abbrev SW : Shape := ⟨5, ![16, 16, 9, 56, 56]⟩

/-- Channel `16·g + cg`: channel `cg` of group `g`. -/
def chan (g : Fin 32) (cg : Fin 16) : Fin 512 := ⟨16 * g.val + cg.val, by have := g.isLt; have := cg.isLt; omega⟩

/-- One 56 × 56 plane `pl` inside one ring of the padding value `z`, at row `r` and column `s` of `0 … 57`: the plane at
    `(r - 1, s - 1)` inside the ring, `z` on it. -/
def ring (pl : Fin 56 → Fin 56 → EReal) (z : EReal) (r s : Nat) : EReal :=
  if h : (1 ≤ r ∧ r ≤ 56) ∧ (1 ≤ s ∧ s ≤ 56) then pl ⟨r - 1, by omega⟩ ⟨s - 1, by omega⟩ else z

/-- The nine taps over one ringed plane `pl` and the nine weights `wp` of one pixel, added left to right onto `zero`. -/
def sum9 (pl : Fin 56 → Fin 56 → EReal) (wp : Fin 9 → EReal) (z zero : EReal) (h w : Fin 56) : EReal :=
  zero + ring pl z (0 + h.val) (0 + w.val) * wp 0 + ring pl z (0 + h.val) (1 + w.val) * wp 1
    + ring pl z (0 + h.val) (2 + w.val) * wp 2 + ring pl z (1 + h.val) (0 + w.val) * wp 3
    + ring pl z (1 + h.val) (1 + w.val) * wp 4 + ring pl z (1 + h.val) (2 + w.val) * wp 5
    + ring pl z (2 + h.val) (0 + w.val) * wp 6 + ring pl z (2 + h.val) (1 + w.val) * wp 7
    + ring pl z (2 + h.val) (2 + w.val) * wp 8

/-- The nine-tap sum depends only on the plane's entries, the nine weights and the pixel. -/
theorem sum9_congr {pl pl' : Fin 56 → Fin 56 → EReal} {wp wp' : Fin 9 → EReal} (z zero : EReal) {h h' w w' : Fin 56}
    (hp : ∀ r s, pl r s = pl' r s) (hw : ∀ k, wp k = wp' k) (hh : h = h') (hww : w = w') :
    sum9 pl wp z zero h w = sum9 pl' wp' z zero h' w' := by
  subst hh hww
  rw [show pl = pl' from funext fun r => funext fun s => hp r s, show wp = wp' from funext hw]

/-- The ringed plane of batch `b`, channel `16·g + cg` of the input `x`. -/
def padded (x : SX.Idx → EReal) (z : EReal) (b : Fin 16) (g : Fin 32) (cg : Fin 16) (r s : Nat) : EReal :=
  ring (fun r' s' => x (ix4 b (chan g cg) r' s')) z r s

/-- Tap `k = 3·di + dj` of the sum: the padded plane shifted by `(di, dj)` times weight plane `k`. -/
def tap (x : SX.Idx → EReal) (wt : SW.Idx → EReal) (z : EReal) (b : Fin 16) (g : Fin 32) (cg : Fin 16) (h w : Fin 56)
    (di dj : Nat) (k : Fin 9) : EReal :=
  padded x z b g cg (di + h.val) (dj + w.val) * wt (ix5 b cg k h w)

/-- The result at batch `b`, group `g`, channel-in-group `cg`, pixel `(h, w)`: the nine taps added left to right
    onto `zero`. -/
def core (x : SX.Idx → EReal) (wt : SW.Idx → EReal) (z zero : EReal) (b : Fin 16) (g : Fin 32) (cg : Fin 16) (h w : Fin 56) : EReal :=
  zero + tap x wt z b g cg h w 0 0 0 + tap x wt z b g cg h w 0 1 1 + tap x wt z b g cg h w 0 2 2
    + tap x wt z b g cg h w 1 0 3 + tap x wt z b g cg h w 1 1 4 + tap x wt z b g cg h w 1 2 5
    + tap x wt z b g cg h w 2 0 6 + tap x wt z b g cg h w 2 1 7 + tap x wt z b g cg h w 2 2 8

/-- The result at one index is the nine-tap sum over the channel's plane and the pixel's nine weights. -/
theorem core_eq_sum9 (x : SX.Idx → EReal) (wt : SW.Idx → EReal) (z zero : EReal) (b : Fin 16) (g : Fin 32) (cg : Fin 16) (h w : Fin 56) :
    core x wt z zero b g cg h w
      = sum9 (fun r s => x (ix4 b (chan g cg) r s)) (fun k => wt (ix5 b cg k h w)) z zero h w := rfl

/-- The padding value: the integer `0` read as a real. -/
def padValue : EReal := (((0#32 : BitVec 32).toInt : ℝ) : EReal)

/-- The value the sum starts from: the float whose bits are all zero. -/
def zero : EReal := Ideal.ofBits .f32 0x00000000#32

/-- The whole result array: entry `(b, c, h, w)` is `core` at group `c / 16` and channel-in-group `c % 16`. -/
def out (x : SX.Idx → EReal) (wt : SW.Idx → EReal) (z zero : EReal) : SX.Idx → EReal := fun i =>
  core x wt z zero (i 0) ⟨(i 1).val / 16, by have h : (i 1).val < 512 := (i 1).isLt; omega⟩ ⟨(i 1).val % 16, by omega⟩ (i 2) (i 3)

end Cert.Spec

end
-- ==== Proof.KPay.lean ====
/-
  One trip of the kernel's loop, read at one index.  A trip takes 16 channels `v4 = x[16k … 16k + 15]` of the
  staged input block, surrounds each 56 × 56 plane by one ring of the padding value (four concatenations: a row
  above, a row below, a column left, a column right), and adds, left to right onto a zero array, the nine
  products of the 56 × 56 windows of the ringed planes at offsets `(di, dj)` with weight plane `3·di + dj`.
  At channel `cg` and pixel `(h, w)` that is the specification's nine-tap sum over plane `cg` of `v4`.
-/
import proofs.«176877_j1013612282168_2_alg».proof.Proof.Gen.KernelIdeal.Skeleton
import proofs.«176877_j1013612282168_2_alg».proof.Proof.Spec
import Idealize.ShloMosaic.Lib.Pipeline.Value
import Idealize.ShloMosaic.Lib.ValueIdx

noncomputable section

namespace Cert.KernelSide

open Cert.KernelIdeal Cert.KernelIdeal.Gen Idealize.ShloMosaic Idealize.ShloMosaic.TcCoe Idealize.SL.Sem
open Idealize.ShloMosaic.ValueIdx Cert.Spec

/-- The 16 planes of one trip with the unit batch axis dropped: entry `(cg, r, s)` is entry `(0, cg, r, s)`. -/
theorem planes_read (v4 : Vec Ideal S1x16x56x56 .f32) (cg : Fin 16) (r s : Fin 56) :
    shapeCast S16x56x56 v4 Facts₀.shapeCasts_S1x16x56x56_S16x56x56 (ix3 cg r s) = v4 (ix4 0 cg r s) :=
  shapeCast_apply v4 Facts₀.shapeCasts_S1x16x56x56_S16x56x56 (ix3 cg r s) (ix4 0 cg r s)
    (by rw [Shape.rowMajor_val_three, Shape.rowMajor_val_four]
        show ((0 * 16 + cg.val) * 56 + r.val) * 56 + s.val = (cg.val * 56 + r.val) * 56 + s.val; omega)

/-- THE RINGED PLANES: the four concatenations leave, at `(cg, r, s)` of `16 × 58 × 58`, plane `cg` at
    `(r - 1, s - 1)` inside the ring and the padding value on it. -/
theorem ring_read (v4 : Vec Ideal S1x16x56x56 .f32) (cg : Fin 16) (r s : Fin 58) :
    k0_pay1 (F := Ideal) v4 (ix3 cg r s) = ring (fun r' s' => v4 (ix4 0 cg r' s')) padValue r.val s.val := by
  have hr := r.isLt; have hs := s.isLt
  unfold k0_pay1 ring
  dsimp only
  by_cases hs57 : s.val = 57
  · -- the last column: the right piece of the last concatenation
    rw [dif_neg (by omega)]
    refine (concatenate_pair_apply_right (t := S16x58x58) (s₁ := S16x58x57) (s₂ := S16x58x1) (2 : Fin 3) _ _ _ (ix3 cg r s) rfl rfl (ix3 cg r ⟨0, by decide⟩)
      (fun b => match b with | ⟨0, _⟩ => fun _ => rfl | ⟨1, _⟩ => fun _ => rfl | ⟨2, _⟩ => fun h => absurd rfl h)
      (by show 0 + 57 = s.val; omega)).trans rfl
  · have hs57' : s.val < 57 := by omega
    refine (concatenate_pair_apply_left (t := S16x58x58) (s₁ := S16x58x57) (s₂ := S16x58x1) (2 : Fin 3) _ _ _ (ix3 cg r s) rfl (ix3 cg r ⟨s.val, hs57'⟩)
      (fun b => match b with | ⟨0, _⟩ => rfl | ⟨1, _⟩ => rfl | ⟨2, _⟩ => rfl)).trans ?_
    by_cases hs0 : s.val = 0
    · -- the first column: the left piece of the third concatenation
      rw [dif_neg (by omega)]
      refine (concatenate_pair_apply_left (t := S16x58x57) (s₁ := S16x58x1) (s₂ := S16x58x56) (2 : Fin 3) _ _ _ (ix3 cg r ⟨s.val, hs57'⟩) rfl (ix3 cg r ⟨0, by decide⟩)
        (fun b => match b with | ⟨0, _⟩ => rfl | ⟨1, _⟩ => rfl | ⟨2, _⟩ => by show 0 = s.val; omega)).trans rfl
    · have hs1 : s.val - 1 < 56 := by omega
      refine (concatenate_pair_apply_right (t := S16x58x57) (s₁ := S16x58x1) (s₂ := S16x58x56) (2 : Fin 3) _ _ _ (ix3 cg r ⟨s.val, hs57'⟩) rfl rfl (ix3 cg r ⟨s.val - 1, hs1⟩)
        (fun b => match b with | ⟨0, _⟩ => fun _ => rfl | ⟨1, _⟩ => fun _ => rfl | ⟨2, _⟩ => fun h => absurd rfl h)
        (by show s.val - 1 + 1 = s.val; omega)).trans ?_
      by_cases hr57 : r.val = 57
      · -- the last row: the right piece of the second concatenation
        rw [dif_neg (by omega)]
        refine (concatenate_pair_apply_right (t := S16x58x56) (s₁ := S16x57x56) (s₂ := S16x1x56) (1 : Fin 3) _ _ _ (ix3 cg r ⟨s.val - 1, hs1⟩) rfl rfl (ix3 cg ⟨0, by decide⟩ ⟨s.val - 1, hs1⟩)
          (fun b => match b with | ⟨0, _⟩ => fun _ => rfl | ⟨1, _⟩ => fun h => absurd rfl h | ⟨2, _⟩ => fun _ => rfl)
          (by show 0 + 57 = r.val; omega)).trans rfl
      · have hr57' : r.val < 57 := by omega
        refine (concatenate_pair_apply_left (t := S16x58x56) (s₁ := S16x57x56) (s₂ := S16x1x56) (1 : Fin 3) _ _ _ (ix3 cg r ⟨s.val - 1, hs1⟩) rfl (ix3 cg ⟨r.val, hr57'⟩ ⟨s.val - 1, hs1⟩)
          (fun b => match b with | ⟨0, _⟩ => rfl | ⟨1, _⟩ => rfl | ⟨2, _⟩ => rfl)).trans ?_
        by_cases hr0 : r.val = 0
        · -- the first row: the left piece of the first concatenation
          rw [dif_neg (by omega)]
          refine (concatenate_pair_apply_left (t := S16x57x56) (s₁ := S16x1x56) (s₂ := S16x56x56) (1 : Fin 3) _ _ _ (ix3 cg ⟨r.val, hr57'⟩ ⟨s.val - 1, hs1⟩) rfl (ix3 cg ⟨0, by decide⟩ ⟨s.val - 1, hs1⟩)
            (fun b => match b with | ⟨0, _⟩ => rfl | ⟨1, _⟩ => by show 0 = r.val; omega | ⟨2, _⟩ => rfl)).trans rfl
        · -- inside the ring: the plane itself, one row up and one column left
          have hr1 : r.val - 1 < 56 := by omega
          rw [dif_pos ⟨⟨by omega, by omega⟩, ⟨by omega, by omega⟩⟩]
          refine (concatenate_pair_apply_right (t := S16x57x56) (s₁ := S16x1x56) (s₂ := S16x56x56) (1 : Fin 3) _ _ _ (ix3 cg ⟨r.val, hr57'⟩ ⟨s.val - 1, hs1⟩) rfl rfl (ix3 cg ⟨r.val - 1, hr1⟩ ⟨s.val - 1, hs1⟩)
            (fun b => match b with | ⟨0, _⟩ => fun _ => rfl | ⟨1, _⟩ => fun h => absurd rfl h | ⟨2, _⟩ => fun _ => rfl)
            (by show r.val - 1 + 1 = r.val; omega)).trans ?_
          exact planes_read v4 cg ⟨r.val - 1, hr1⟩ ⟨s.val - 1, hs1⟩

/-- A 56 × 56 window of the ringed planes at offset `(di, dj)`, at `(cg, h, w)`: the ringed plane `cg` at
    `(di + h, dj + w)`. -/
theorem window_read (v4 : Vec Ideal S1x16x56x56 .f32) (cg : Fin 16) (h w : Fin 56) (di dj : Nat) (hdi : di < 3) (hdj : dj < 3)
    (hsl : S16x58x58.Slices ![0, di, dj] S16x56x56) :
    extractStridedSlice S16x56x56 ![0, di, dj] (k0_pay1 (F := Ideal) v4) hsl (ix3 cg h w)
      = ring (fun r' s' => v4 (ix4 0 cg r' s')) padValue (di + h.val) (dj + w.val) :=
  (extractStridedSlice_apply ![0, di, dj] (k0_pay1 (F := Ideal) v4) hsl (ix3 cg h w)
      (ix3 cg ⟨di + h.val, by have := h.isLt; omega⟩ ⟨dj + w.val, by have := w.isLt; omega⟩)
      (fun a => match a with
        | ⟨0, _⟩ => by show cg.val = 0 + cg.val; omega
        | ⟨1, _⟩ => rfl
        | ⟨2, _⟩ => rfl)).trans
    (ring_read v4 cg ⟨di + h.val, by have := h.isLt; omega⟩ ⟨dj + w.val, by have := w.isLt; omega⟩)

/-- One loaded weight plane with its two unit axes dropped: entry `(cg, h, w)` is entry `(0, cg, 0, h, w)`. -/
theorem wplane_read (v : Vec Ideal S1x16x1x56x56 .f32) (cg : Fin 16) (h w : Fin 56) :
    shapeCast S16x56x56 v Facts₀.shapeCasts_S1x16x1x56x56_S16x56x56 (ix3 cg h w) = v (ix5 0 cg 0 h w) :=
  shapeCast_apply v Facts₀.shapeCasts_S1x16x1x56x56_S16x56x56 (ix3 cg h w) (ix5 0 cg 0 h w)
    (by rw [Shape.rowMajor_val_three, Shape.rowMajor_val_five]
        show (((0 * 16 + cg.val) * 1 + 0) * 56 + h.val) * 56 + w.val = (cg.val * 56 + h.val) * 56 + w.val; omega)

/-- The nine weights of one pixel, from the nine loaded planes. -/
def wts (v17 v22 v27 v32 v37 v42 v47 v52 v57 : Vec Ideal S1x16x1x56x56 .f32) (cg : Fin 16) (h w : Fin 56) : Fin 9 → EReal :=
  fun k => (![v17, v22, v27, v32, v37, v42, v47, v52, v57] k) (ix5 0 cg 0 h w)

/-- WHAT ONE TRIP STORES, at `(0, cg, h, w)` of its 16 channels: the nine-tap sum over plane `cg` of the trip's
    channels and the pixel's nine loaded weights. -/
theorem trip_read (v4 : Vec Ideal S1x16x56x56 .f32) (v17 v22 v27 v32 v37 v42 v47 v52 v57 : Vec Ideal S1x16x1x56x56 .f32)
    (cg : Fin 16) (h w : Fin 56) :
    k0_pay5 (F := Ideal) (k0_pay1 v4) (k0_pay2 v4 v17 v22 v27) (k0_pay3 v4) (k0_pay4 v32) v37 v42 v47 v52 v57 (ix4 0 cg h w)
      = sum9 (fun r s => v4 (ix4 0 cg r s)) (wts v17 v22 v27 v32 v37 v42 v47 v52 v57 cg h w) padValue zero h w := by
  unfold k0_pay5
  refine (shapeCast_apply _ Facts₀.shapeCasts_S16x56x56_S1x16x56x56 (ix4 0 cg h w) (ix3 cg h w)
    (by rw [Shape.rowMajor_val_three, Shape.rowMajor_val_four]
        show (cg.val * 56 + h.val) * 56 + w.val = ((0 * 16 + cg.val) * 56 + h.val) * 56 + w.val; omega)).trans ?_
  exact congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (rfl : _ = zero)
      (congrArg₂ (· * ·) (window_read v4 cg h w 0 0 (by decide) (by decide) Facts₀.slices_S16x58x58_o0_0_0_S16x56x56) (wplane_read v17 cg h w)))
      (congrArg₂ (· * ·) (window_read v4 cg h w 0 1 (by decide) (by decide) Facts₀.slices_S16x58x58_o0_0_1_S16x56x56) (wplane_read v22 cg h w)))
      (congrArg₂ (· * ·) (window_read v4 cg h w 0 2 (by decide) (by decide) Facts₀.slices_S16x58x58_o0_0_2_S16x56x56) (wplane_read v27 cg h w)))
      (congrArg₂ (· * ·) (window_read v4 cg h w 1 0 (by decide) (by decide) Facts₀.slices_S16x58x58_o0_1_0_S16x56x56) (wplane_read v32 cg h w)))
      (congrArg₂ (· * ·) (window_read v4 cg h w 1 1 (by decide) (by decide) Facts₀.slices_S16x58x58_o0_1_1_S16x56x56) (wplane_read v37 cg h w)))
      (congrArg₂ (· * ·) (window_read v4 cg h w 1 2 (by decide) (by decide) Facts₀.slices_S16x58x58_o0_1_2_S16x56x56) (wplane_read v42 cg h w)))
      (congrArg₂ (· * ·) (window_read v4 cg h w 2 0 (by decide) (by decide) Facts₀.slices_S16x58x58_o0_2_0_S16x56x56) (wplane_read v47 cg h w)))
      (congrArg₂ (· * ·) (window_read v4 cg h w 2 1 (by decide) (by decide) Facts₀.slices_S16x58x58_o0_2_1_S16x56x56) (wplane_read v52 cg h w)))
      (congrArg₂ (· * ·) (window_read v4 cg h w 2 2 (by decide) (by decide) Facts₀.slices_S16x58x58_o0_2_2_S16x56x56) (wplane_read v57 cg h w))

end Cert.KernelSide

end
-- ==== Proof.KBlock.lean ====
/-
  What the kernel body leaves in the output block, as ONE function of the two staged blocks.  The body's 16 trips
  store 16 pieces, trip `k` the channels `16k … 16k + 15`; each piece is, entry by entry, the nine-tap sum over the
  plane of its channel `c' = 16k + cg` of the staged input block and the nine weights of channel-in-group
  `c' % 16 = cg` of the staged weight block.  The pieces tile the block, so the block ends holding that function.
-/
import proofs.«176877_j1013612282168_2_alg».proof.Proof.IdealFrame
import proofs.«176877_j1013612282168_2_alg».proof.Proof.KPay

noncomputable section

namespace Cert.KernelSide

open Cert.KernelIdeal Cert.KernelIdeal.Gen Cert.KernelIdeal.GenP Cert.KernelIdeal.Body
open Idealize.ShloMosaic Idealize.ShloMosaic.TcCoe Idealize.SL.Sem
open Idealize.ShloMosaic.ValueIdx Cert.Spec

/-- The output block at channel `c'` and pixel `(h, w)`: the nine-tap sum over plane `c'` of the staged input block
    and the pixel's nine weights of channel-in-group `c' % 16`. -/
def blockOutAt (x0 : Vec Ideal S1x256x56x56 .f32) (x1 : Vec Ideal S1x16x9x56x56 .f32) (c' : Fin 256) (h w : Fin 56) : EReal :=
  sum9 (fun r s => x0 (ix4 0 c' r s)) (fun k => x1 (ix5 0 ⟨c'.val % 16, Nat.mod_lt _ (by decide)⟩ k h w)) padValue zero h w

/-- The output block as a function of its index. -/
def blockOut (x0 : Vec Ideal S1x256x56x56 .f32) (x1 : Vec Ideal S1x16x9x56x56 .f32) : S1x256x56x56.Idx → EReal :=
  fun y => blockOutAt x0 x1 (y 1) (y 2) (y 3)

/-- A load of weight plane `j` of the staged weight block, at `(0, cg, 0, h, w)`, is the block at `(0, cg, j, h, w)`. -/
theorem wplane_ld (x1 : Vec Ideal S1x16x9x56x56 .f32) (j : Nat) (hj : j < 9)
    (inb : ∀ a, (![0, 0, j, 0, 0] : Fin 5 → Nat) a + S1x16x1x56x56.size a ≤ S1x16x9x56x56.size a)
    (cg cm : Fin 16) (hcm : cg.val = cm.val) (h w : Fin 56) :
    View.ld x1 (Rect.unit (s := S1x16x9x56x56) ![0, 0, j, 0, 0] S1x16x1x56x56.size inb) (ix5 0 cg 0 h w)
      = x1 (ix5 0 cm ⟨j, hj⟩ h w) :=
  congrArg x1 (funext fun a => Fin.ext (match a with
    | ⟨0, _⟩ => by show 0 + 1 * 0 = 0; rfl
    | ⟨1, _⟩ => by show 0 + 1 * cg.val = cm.val; omega
    | ⟨2, _⟩ => by show j + 1 * 0 = j; omega
    | ⟨3, _⟩ => by show 0 + 1 * h.val = h.val; omega
    | ⟨4, _⟩ => by show 0 + 1 * w.val = w.val; omega))

/-- Trip `k`'s rectangle sends `(0, cg, h, w)` of its 16 channels to `(0, 16k + cg, h, w)` of the block. -/
theorem chan_emb (k : Fin k0_t1_loop.trips) (cg : Fin 16) (h w : Fin 56) (hkc : 16 * k.val + cg.val < 256) :
    (Rect.unit (s := S1x256x56x56) (k0_off1 k) S1x16x56x56.size (Facts₀.k0_off1_inb k)).emb (ix4 0 cg h w)
      = ix4 0 ⟨16 * k.val + cg.val, hkc⟩ h w := by
  have hoff := k0_off1_eq k
  have h0 : k0_off1 k 0 = 0 := by rw [hoff]; rfl
  have h1 : k0_off1 k 1 = 16 * k.val := by rw [hoff]; rfl
  have h2 : k0_off1 k 2 = 0 := by rw [hoff]; rfl
  have h3 : k0_off1 k 3 = 0 := by rw [hoff]; rfl
  refine funext fun a => Fin.ext ?_
  match a with
  | ⟨0, _⟩ => show k0_off1 k 0 + 1 * 0 = 0; omega
  | ⟨1, _⟩ => show k0_off1 k 1 + 1 * cg.val = 16 * k.val + cg.val; omega
  | ⟨2, _⟩ => show k0_off1 k 2 + 1 * h.val = h.val; omega
  | ⟨3, _⟩ => show k0_off1 k 3 + 1 * w.val = w.val; omega

/-- WHAT TRIP `k` STORES at `(0, cg, h, w)` of its channels is the block function at channel `16k + cg`. -/
theorem tripPay_read (x0 : Vec Ideal S1x256x56x56 .f32) (x1 : Vec Ideal S1x16x9x56x56 .f32) (k : Fin k0_t1_loop.trips)
    (cg : Fin 16) (h w : Fin 56) (hkc : 16 * k.val + cg.val < 256) :
    tripPay (F := Ideal) x0 x1 k (ix4 0 cg h w) = blockOutAt x0 x1 ⟨16 * k.val + cg.val, hkc⟩ h w := by
  have hcm : cg.val = (16 * k.val + cg.val) % 16 := by have := cg.isLt; omega
  unfold tripPay
  refine (trip_read _ _ _ _ _ _ _ _ _ _ cg h w).trans ?_
  unfold blockOutAt
  refine sum9_congr padValue zero (fun r s => ?_) (fun k' => ?_) rfl rfl
  · exact congrArg x0 (chan_emb k cg r s hkc)
  · match k' with
    | ⟨0, _⟩ => exact wplane_ld x1 0 _ _ cg _ hcm h w
    | ⟨1, _⟩ => exact wplane_ld x1 1 _ _ cg _ hcm h w
    | ⟨2, _⟩ => exact wplane_ld x1 2 _ _ cg _ hcm h w
    | ⟨3, _⟩ => exact wplane_ld x1 3 _ _ cg _ hcm h w
    | ⟨4, _⟩ => exact wplane_ld x1 4 _ _ cg _ hcm h w
    | ⟨5, _⟩ => exact wplane_ld x1 5 _ _ cg _ hcm h w
    | ⟨6, _⟩ => exact wplane_ld x1 6 _ _ cg _ hcm h w
    | ⟨7, _⟩ => exact wplane_ld x1 7 _ _ cg _ hcm h w
    | ⟨8, _⟩ => exact wplane_ld x1 8 _ _ cg _ hcm h w

/-- Trip `k`'s piece is the block function under its rectangle. -/
theorem tripPiece_agrees (x0 : Vec Ideal S1x256x56x56 .f32) (x1 : Vec Ideal S1x16x9x56x56 .f32) (k : Fin k0_t1_loop.trips)
    (x : S1x16x56x56.Idx) :
    tripPay (F := Ideal) x0 x1 k x
      = blockOut x0 x1 ((Rect.unit (s := S1x256x56x56) (k0_off1 k) S1x16x56x56.size (Facts₀.k0_off1_inb k)).emb x) := by
  have hk : k.val < 16 := Nat.lt_of_lt_of_le k.isLt k0_t1_abs.2.1
  have hx : ∃ (cg : Fin 16) (h w : Fin 56), x = ix4 (0 : Fin 1) cg h w :=
    ⟨x 1, x 2, x 3, funext fun a => match a with
      | ⟨0, _⟩ => Fin.ext (by have h0 : (x 0).val < 1 := (x 0).isLt; show (x 0).val = 0; omega)
      | ⟨1, _⟩ => rfl
      | ⟨2, _⟩ => rfl
      | ⟨3, _⟩ => rfl⟩
  obtain ⟨cg, h, w, rfl⟩ := hx
  have hc : cg.val < 16 := cg.isLt
  have hkc : 16 * k.val + cg.val < 256 := by omega
  rw [chan_emb k cg h w hkc]
  exact tripPay_read x0 x1 k cg h w hkc

/-- Every piece of the trips before `n` is the block function under its rectangle. -/
theorem pieces_agree (x0 : Vec Ideal S1x256x56x56 .f32) (x1 : Vec Ideal S1x16x9x56x56 .f32) :
    ∀ n : ℕ, ∀ p ∈ pieces (F := Ideal) x0 x1 n, ∀ x : p.1.shape.Idx, p.2 x = blockOut x0 x1 (p.1.emb x)
  | 0 => fun p hp => absurd hp List.not_mem_nil
  | n + 1 => fun p hp => by
    rw [pieces] at hp
    by_cases h : n < k0_t1_loop.trips
    · rw [dif_pos h] at hp
      rcases List.mem_cons.mp hp with rfl | hp'
      · exact fun x => tripPiece_agrees x0 x1 ⟨n, h⟩ x
      · exact pieces_agree x0 x1 n p hp'
    · rw [dif_neg h] at hp
      exact pieces_agree x0 x1 n p hp

/-- THE OUTPUT BLOCK AFTER THE BODY, on any staging memrefs holding the blocks `x0` and `x1`: the block function. -/
theorem out_eq (c : Dev nD) (i : grid0.Coords) (arg2 : Memref sig .tc .vmem S1x256x56x56 .f32) (harg2 : arg2.IsWhole)
    (arg3 : Memref sig .tc .vmem S1x16x9x56x56 .f32) (harg3 : arg3.IsWhole) (arg4 : Memref sig .tc .vmem S1x256x56x56 .f32) (harg4 : arg4.IsWhole)
    (x0 : Vec Ideal S1x256x56x56 .f32) (x1 : Vec Ideal S1x16x9x56x56 .f32) :
    out0_A_2 (F := Ideal) c i arg2 harg2 arg3 harg3 arg4 harg4 x0 x1 = blockOut x0 x1 := by
  unfold out0_A_2
  rw [View.read_writes_junk_eq_canon]
  funext y
  exact View.canon_apply_of_pieces (blockOut x0 x1) _ (pieces_agree x0 x1 k0_t1_loop.trips) y
    (cover0_A_2 c i arg2 harg2 arg3 harg3 arg4 harg4 x0 x1 y)

end Cert.KernelSide

end
-- ==== Proof.KArray.lean ====
/-
  From blocks to the array.  Grid point `t = (b, cb)` stages channels `256·cb … 256·cb + 255` of batch `b` of the
  input, all of batch `b` of the weights, and writes back channels `256·cb … 256·cb + 255` of batch `b` of the
  result.  Channel `c'` of the block is channel `c = 256·cb + c'` of the array, and `c % 16 = c' % 16`, so what the
  body leaves in the block is the specification read through the block; the 32 blocks tile the array, so the
  array ends holding the specification.
-/
import proofs.«176877_j1013612282168_2_alg».proof.Proof.KBlock
import proofs.«176877_j1013612282168_2_alg».proof.Proof.IdealValue

noncomputable section

namespace Cert.KernelSide

open Cert.KernelIdeal Cert.KernelIdeal.Gen Cert.KernelIdeal.GenP Cert.KernelIdeal.ValueP
open Idealize.ShloMosaic Idealize.ShloMosaic.TcCoe Idealize.SL.Sem
open Idealize.ShloMosaic.Pipeline (Dat)
open Idealize.ShloMosaic.ValueIdx Cert.Spec

/-- The nine-tap sum over channel `256·cb + c'` of batch `b`, with the weights of channel-in-group `c' % 16`, is the
    specification at `(b, 256·cb + c', h, w)`: the channel's group is `(256·cb + c') / 16` and its channel-in-group
    `(256·cb + c') % 16 = c' % 16`. -/
theorem block_is_out (X : SX.Idx → EReal) (W : SW.Idx → EReal) (b : Fin 16) (cb : Nat) (c' : Fin 256) (h w : Fin 56)
    (hc : 256 * cb + c'.val < 512) :
    sum9 (fun r s => X (ix4 b ⟨256 * cb + c'.val, hc⟩ r s)) (fun k => W (ix5 b ⟨c'.val % 16, Nat.mod_lt _ (by decide)⟩ k h w)) padValue zero h w
      = out X W padValue zero (ix4 b ⟨256 * cb + c'.val, hc⟩ h w) := by
  unfold out
  rw [core_eq_sum9]
  refine sum9_congr padValue zero (fun r s => congrArg X ?_) (fun k => congrArg W ?_) rfl rfl
  · refine funext fun a => Fin.ext ?_
    match a with
    | ⟨0, _⟩ => rfl
    | ⟨1, _⟩ => show 256 * cb + c'.val = 16 * ((256 * cb + c'.val) / 16) + (256 * cb + c'.val) % 16; omega
    | ⟨2, _⟩ => rfl
    | ⟨3, _⟩ => rfl
  · refine funext fun a => Fin.ext ?_
    match a with
    | ⟨0, _⟩ => rfl
    | ⟨1, _⟩ => show c'.val % 16 = (256 * cb + c'.val) % 16; omega
    | ⟨2, _⟩ => rfl
    | ⟨3, _⟩ => rfl
    | ⟨4, _⟩ => rfl

variable (m : (ℓ : Loc nD τ sig) → Buf (Elt Ideal) ℓ) (ρ : Dev nD → PrngReg)

/-- The printed index maps, decided over the 32 grid points: the input's block moves with the output's, the weights'
    block follows the batch coordinate only, and the output's block indices are `(b, cb, 0, 0)` with `b ≤ 15`, `cb ≤ 1`. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 5) = win0_2.index t (0 : Fin 4) ∧ win0_1.index t (1 : Fin 5) = 0 ∧ win0_1.index t (2 : Fin 5) = 0
    ∧ win0_1.index t (3 : Fin 5) = 0 ∧ win0_1.index t (4 : Fin 5) = 0
    ∧ win0_2.index t (0 : Fin 4) ≤ 15 ∧ win0_2.index t (1 : Fin 4) ≤ 1
    ∧ win0_2.index t (2 : Fin 4) = 0 ∧ win0_2.index t (3 : Fin 4) = 0 :=
  (by decide +kernel : ∀ t : Fin grid0.N, _)

/-- Every block `(b, cb)` of the result is some grid point's. -/
theorem idx_onto : ∀ (q0 : Fin 16) (q1 : Fin 2), ∃ t : Fin cfg0.N, win0_2.index t = ![q0.val, q1.val, 0, 0] :=
  (by decide +kernel : ∀ (q0 : Fin 16) (q1 : Fin 2), ∃ t : Fin grid0.N, win0_2.index t = ![q0.val, q1.val, 0, 0])

/-- WHAT POINT `t` WRITES BACK is block `t` of the specification of the argument arrays. -/
theorem flushed_eq (c : Dev nD) (t : Fin cfg0.N) :
    (dats m 0 c).flushed 2 t
      = ((cfg0.win 2).blk t).view.read (Elt Ideal) (out (V m c main_arg0) (V m c main_arg1) padValue zero) := by
  rw [flushed2_A, out_eq]
  obtain ⟨e00, e01, e02, e03, e10, e11, e12, e13, e14, b0, b1, e22, e23⟩ := idx_facts t
  have hb : win0_2.index t (0 : Fin 4) < 16 := by omega
  funext j
  have hj0 : (j 0).val < 1 := (j 0).isLt
  have hj1 : (j 1).val < 256 := (j 1).isLt
  have hcb : 256 * win0_2.index t (1 : Fin 4) + (j 1).val < 512 := by omega
  have hi : ((cfg0.win 2).blk t).view.emb j
      = ix4 ⟨win0_2.index t (0 : Fin 4), hb⟩ ⟨256 * win0_2.index t (1 : Fin 4) + (j 1).val, hcb⟩ (j 2) (j 3) := by
    funext a; apply Fin.ext
    match a with
    | ⟨0, _⟩ => show win0_2.index t (0 : Fin 4) * 1 + 1 * (j 0).val = win0_2.index t (0 : Fin 4); omega
    | ⟨1, _⟩ => show win0_2.index t (1 : Fin 4) * 256 + 1 * (j 1).val = 256 * win0_2.index t (1 : Fin 4) + (j 1).val; omega
    | ⟨2, _⟩ => show win0_2.index t (2 : Fin 4) * 56 + 1 * (j 2).val = (j 2).val; omega
    | ⟨3, _⟩ => show win0_2.index t (3 : Fin 4) * 56 + 1 * (j 3).val = (j 3).val; omega
  show blockOut (iblk m c 0 t) (iblk m c 1 t) j
    = out (V m c main_arg0) (V m c main_arg1) padValue zero (((cfg0.win 2).blk t).view.emb j)
  rw [hi]
  refine Eq.trans ?_ (block_is_out (V m c main_arg0) (V m c main_arg1) ⟨win0_2.index t (0 : Fin 4), hb⟩
    (win0_2.index t (1 : Fin 4)) (j 1) (j 2) (j 3) hcb)
  unfold blockOut blockOutAt
  refine sum9_congr padValue zero (fun r s => ?_) (fun k => ?_) rfl rfl
  · -- the staged input block at channel `c'` is the input at channel `256·cb + c'` of batch `b`
    show V m c main_arg0 (((cfg0.win 0).blk t).view.emb (ix4 0 (j 1) r s))
      = V m c main_arg0 (ix4 ⟨win0_2.index t (0 : Fin 4), hb⟩ ⟨256 * win0_2.index t (1 : Fin 4) + (j 1).val, hcb⟩ r s)
    refine congrArg (V m c main_arg0) ?_
    funext a; apply Fin.ext
    match a with
    | ⟨0, _⟩ => show win0_0.index t (0 : Fin 4) * 1 + 1 * 0 = win0_2.index t (0 : Fin 4); omega
    | ⟨1, _⟩ => show win0_0.index t (1 : Fin 4) * 256 + 1 * (j 1).val = 256 * win0_2.index t (1 : Fin 4) + (j 1).val; omega
    | ⟨2, _⟩ => show win0_0.index t (2 : Fin 4) * 56 + 1 * r.val = r.val; omega
    | ⟨3, _⟩ => show win0_0.index t (3 : Fin 4) * 56 + 1 * s.val = s.val; omega
  · -- the staged weight block is batch `b` of the weights
    show V m c main_arg1 (((cfg0.win 1).blk t).view.emb (ix5 0 ⟨(j 1).val % 16, Nat.mod_lt _ (by decide)⟩ k (j 2) (j 3)))
      = V m c main_arg1 (ix5 ⟨win0_2.index t (0 : Fin 4), hb⟩ ⟨(j 1).val % 16, Nat.mod_lt _ (by decide)⟩ k (j 2) (j 3))
    refine congrArg (V m c main_arg1) ?_
    funext a; apply Fin.ext
    match a with
    | ⟨0, _⟩ => show win0_1.index t (0 : Fin 5) * 1 + 1 * 0 = win0_2.index t (0 : Fin 4); omega
    | ⟨1, _⟩ => show win0_1.index t (1 : Fin 5) * 16 + 1 * ((j 1).val % 16) = (j 1).val % 16; omega
    | ⟨2, _⟩ => show win0_1.index t (2 : Fin 5) * 9 + 1 * k.val = k.val; omega
    | ⟨3, _⟩ => show win0_1.index t (3 : Fin 5) * 56 + 1 * (j 2).val = (j 2).val; omega
    | ⟨4, _⟩ => show win0_1.index t (4 : Fin 5) * 56 + 1 * (j 3).val = (j 3).val; omega

/-- An index of the result is in point `t`'s block iff each coordinate is in the block's range on its axis. -/
theorem mem_blk (t : Fin cfg0.N) (i : S16x512x56x56.Idx) :
    i ∈ ((cfg0.win 2).blk t).view.set ↔ ∀ a : Fin 4, win0_2.index t a * S1x256x56x56.size a ≤ (i a).val
      ∧ (i a).val < win0_2.index t a * S1x256x56x56.size a + S1x256x56x56.size a := by
  show i ∈ ((View.whole main_v0).slice (win0_2.rect t)).set ↔ _
  rw [View.set_slice_whole, Rect.mem_set_unit]
  exact Iff.rfl

/-- THE BLOCKS TILE THE RESULT: index `(b, c, h, w)` is in the block of the point with `(b, c / 256)`. -/
theorem cover (i : S16x512x56x56.Idx) :
    ∃ t : Fin cfg0.N, (cfg0.win 2).flush t = true ∧ i ∈ ((cfg0.win 2).blk t).view.set := by
  have hi0 : (i 0).val < 16 := (i 0).isLt
  have hi1 : (i 1).val < 512 := (i 1).isLt
  have hi2 : (i 2).val < 56 := (i 2).isLt
  have hi3 : (i 3).val < 56 := (i 3).isLt
  obtain ⟨t, ht⟩ := idx_onto ⟨(i 0).val, hi0⟩ ⟨(i 1).val / 256, by omega⟩
  have q0 : win0_2.index t (0 : Fin 4) = (i 0).val := congrFun ht 0
  have q1 : win0_2.index t (1 : Fin 4) = (i 1).val / 256 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 56 ≤ (i 2).val ∧ (i 2).val < win0_2.index t (2 : Fin 4) * 56 + 56; omega
  | ⟨3, _⟩ => show win0_2.index t (3 : Fin 4) * 56 ≤ (i 3).val ∧ (i 3).val < win0_2.index t (3 : Fin 4) * 56 + 56; omega

/-- THE RESULT ARRAY after the run is the specification of the argument arrays as the region finds them. -/
theorem final (c : Dev nD) :
    (dats m 0 c).arrAt 2 cfg0.N = out (V m c main_arg0) (V m c main_arg1) padValue zero :=
  (dats m 0 c).arrAt_eq_of_cover 2 (out (V m c main_arg0) (V m c main_arg1) padValue zero)
    (fun t _ => flushed_eq m c t) cover

/-- THE KERNEL'S RUN, read: every weakly fair execution terminates with the result array at the specification of
    the arguments, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) padValue zero
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelSide

end
-- ==== Proof.RefSide.lean ====
/-
  The reference computes the specification.  It splits the channels into 32 groups of 16, pads the two pixel
  axes of the input by one ring of the padding value, and adds, left to right onto a zero array, the nine
  products of a 56 × 56 window of the padded planes (shifted by `(di, dj)`) with weight plane `k = 3·di + dj`
  repeated along the group axis; the result is laid back into 512 channels.  Read at one index each of these
  steps is one entry of its operand, so the result at `(b, g, cg, h, w)` is `Spec.core` there, term by term.
-/
import proofs.«176877_j1013612282168_2_alg».proof.Proof.Gen.ReferenceIdeal.Read
import proofs.«176877_j1013612282168_2_alg».proof.Proof.Spec
import Idealize.ShloMosaic.Lib.KernelVsHost
import Idealize.ShloMosaic.Lib.ValueIdx

noncomputable section

namespace Cert.RefSide

open Cert.ReferenceIdeal Cert.ReferenceIdeal.Read Idealize.ShloMosaic Idealize.ShloMosaic.TcCoe Idealize.SL.Sem
open Idealize.ShloMosaic.ValueIdx Cert.Spec

/-! ## The padded, regrouped input at an index -/

/-- The padded array at `(b, g, cg, r, s)` is the specification's padded plane of channel `16·g + cg`: inside the
    ring it is the regrouped input at `(r - 1, s - 1)`, which is the input at channel `16·g + cg` (the regrouping
    keeps the row-major position); on the ring it is the padding value. -/
theorem pad_read (x0 : (⟨S16x512x56x56, .f32⟩ : BufTy).Contents (Elt Ideal)) (j : S16x32x16x58x58.Idx)
    (b : Fin 16) (g : Fin 32) (cg : Fin 16) (r s : Nat)
    (h0 : (j 0).val = b.val) (h1 : (j 1).val = g.val) (h2 : (j 2).val = cg.val) (h3 : (j 3).val = r) (h4 : (j 4).val = s) :
    val_main_v1 (F := Ideal) x0 j = padded x0 padValue b g cg r s := by
  unfold val_main_v1 padded ring
  have hb := b.isLt; have hg := g.isLt; have hcg := cg.isLt
  by_cases hin : (1 ≤ r ∧ r ≤ 56) ∧ (1 ≤ s ∧ s ≤ 56)
  · rw [dif_pos hin]
    have hr : r - 1 < 56 := by omega
    have hs : s - 1 < 56 := by omega
    refine (pad_apply_of_inside _ _ _ _ _ _ _ j (ix5 b g cg ⟨r - 1, hr⟩ ⟨s - 1, hs⟩) (fun a => ?_)).trans ?_
    · match a with
      | ⟨0, _⟩ => show (j 0).val = 0 + b.val * (0 + 1); omega
      | ⟨1, _⟩ => show (j 1).val = 0 + g.val * (0 + 1); omega
      | ⟨2, _⟩ => show (j 2).val = 0 + cg.val * (0 + 1); omega
      | ⟨3, _⟩ => show (j 3).val = 1 + (r - 1) * (0 + 1); omega
      | ⟨4, _⟩ => show (j 4).val = 1 + (s - 1) * (0 + 1); omega
    · rw [val_main_v0_apply]
      refine congrArg x0 (funext fun a => Fin.ext ?_)
      match a with
      | ⟨0, _⟩ => show ((((b.val * 32 + g.val) * 16 + cg.val) * 56 + (r - 1)) * 56 + (s - 1)) / 1605632 = b.val; omega
      | ⟨1, _⟩ => show ((((b.val * 32 + g.val) * 16 + cg.val) * 56 + (r - 1)) * 56 + (s - 1)) / 3136 % 512 = 16 * g.val + cg.val; omega
      | ⟨2, _⟩ => show ((((b.val * 32 + g.val) * 16 + cg.val) * 56 + (r - 1)) * 56 + (s - 1)) / 56 % 56 = r - 1; omega
      | ⟨3, _⟩ => show ((((b.val * 32 + g.val) * 16 + cg.val) * 56 + (r - 1)) * 56 + (s - 1)) % 56 = s - 1; omega
  · rw [dif_neg hin]
    by_cases hr : 1 ≤ r ∧ r ≤ 56
    · refine (pad_apply_of_not_inside _ _ _ _ _ _ _ j 4 (fun hc => hin ⟨hr, ?_⟩)).trans rfl
      have hc' : 1 ≤ (j 4).val ∧ ((j 4).val - 1) % (0 + 1) = 0 ∧ ((j 4).val - 1) / (0 + 1) < 56 := hc
      omega
    · refine (pad_apply_of_not_inside _ _ _ _ _ _ _ j 3 (fun hc => hr ?_)).trans rfl
      have hc' : 1 ≤ (j 3).val ∧ ((j 3).val - 1) % (0 + 1) = 0 ∧ ((j 3).val - 1) / (0 + 1) < 56 := hc
      omega

/-! ## The weight planes at an index -/

set_option hygiene false in
/-- The index reached through the group broadcast, the dropped unit axis and the slice of one weight plane, axis by axis. -/
local macro "wplane_idx" : tactic => `(tactic| (
  refine congrArg x1 (funext fun a => Fin.ext ?_)
  have h0 : (j 0).val < 16 := (j 0).isLt
  have h2 : (j 2).val < 16 := (j 2).isLt
  have h3 : (j 3).val < 56 := (j 3).isLt
  have h4 : (j 4).val < 56 := (j 4).isLt
  match a with
  | ⟨0, _⟩ => show ((((j 0).val * 16 + (j 2).val) * 56 + (j 3).val) * 56 + (j 4).val) / 50176 = (j 0).val; omega
  | ⟨1, _⟩ => show ((((j 0).val * 16 + (j 2).val) * 56 + (j 3).val) * 56 + (j 4).val) / 3136 % 16 = (j 2).val; omega
  | ⟨2, _⟩ => rfl
  | ⟨3, _⟩ => show ((((j 0).val * 16 + (j 2).val) * 56 + (j 3).val) * 56 + (j 4).val) / 56 % 56 = (j 3).val; omega
  | ⟨4, _⟩ => show ((((j 0).val * 16 + (j 2).val) * 56 + (j 3).val) * 56 + (j 4).val) % 56 = (j 4).val; omega))

/-- Weight plane 0 broadcast over the groups, at `(b, g, cg, h, w)`, is the weights at `(b, cg, 0, h, w)`:
    a slice of plane 0, the unit axis dropped, then repeated along the group axis. -/
theorem weight0 (x1 : (⟨S16x16x9x56x56, .f32⟩ : BufTy).Contents (Elt Ideal)) (j : S16x32x16x56x56.Idx) :
    val_main_v7 (F := Ideal) x1 j = x1 (ix5 (j 0) (j 2) 0 (j 3) (j 4)) := by
  rw [val_main_v7_apply, val_main_v6_apply, val_main_v5_apply, val_main_v4_apply]
  wplane_idx

/-- Weight plane 1 broadcast over the groups, at `(b, g, cg, h, w)`, is the weights at `(b, cg, 1, h, w)`:
    a slice of plane 1, the unit axis dropped, then repeated along the group axis. -/
theorem weight1 (x1 : (⟨S16x16x9x56x56, .f32⟩ : BufTy).Contents (Elt Ideal)) (j : S16x32x16x56x56.Idx) :
    val_main_v14 (F := Ideal) x1 j = x1 (ix5 (j 0) (j 2) 1 (j 3) (j 4)) := by
  rw [val_main_v14_apply, val_main_v13_apply, val_main_v12_apply, val_main_v11_apply]
  wplane_idx

/-- Weight plane 2 broadcast over the groups, at `(b, g, cg, h, w)`, is the weights at `(b, cg, 2, h, w)`:
    a slice of plane 2, the unit axis dropped, then repeated along the group axis. -/
theorem weight2 (x1 : (⟨S16x16x9x56x56, .f32⟩ : BufTy).Contents (Elt Ideal)) (j : S16x32x16x56x56.Idx) :
    val_main_v21 (F := Ideal) x1 j = x1 (ix5 (j 0) (j 2) 2 (j 3) (j 4)) := by
  rw [val_main_v21_apply, val_main_v20_apply, val_main_v19_apply, val_main_v18_apply]
  wplane_idx

/-- Weight plane 3 broadcast over the groups, at `(b, g, cg, h, w)`, is the weights at `(b, cg, 3, h, w)`:
    a slice of plane 3, the unit axis dropped, then repeated along the group axis. -/
theorem weight3 (x1 : (⟨S16x16x9x56x56, .f32⟩ : BufTy).Contents (Elt Ideal)) (j : S16x32x16x56x56.Idx) :
    val_main_v28 (F := Ideal) x1 j = x1 (ix5 (j 0) (j 2) 3 (j 3) (j 4)) := by
  rw [val_main_v28_apply, val_main_v27_apply, val_main_v26_apply, val_main_v25_apply]
  wplane_idx

/-- Weight plane 4 broadcast over the groups, at `(b, g, cg, h, w)`, is the weights at `(b, cg, 4, h, w)`:
    a slice of plane 4, the unit axis dropped, then repeated along the group axis. -/
theorem weight4 (x1 : (⟨S16x16x9x56x56, .f32⟩ : BufTy).Contents (Elt Ideal)) (j : S16x32x16x56x56.Idx) :
    val_main_v35 (F := Ideal) x1 j = x1 (ix5 (j 0) (j 2) 4 (j 3) (j 4)) := by
  rw [val_main_v35_apply, val_main_v34_apply, val_main_v33_apply, val_main_v32_apply]
  wplane_idx

/-- Weight plane 5 broadcast over the groups, at `(b, g, cg, h, w)`, is the weights at `(b, cg, 5, h, w)`:
    a slice of plane 5, the unit axis dropped, then repeated along the group axis. -/
theorem weight5 (x1 : (⟨S16x16x9x56x56, .f32⟩ : BufTy).Contents (Elt Ideal)) (j : S16x32x16x56x56.Idx) :
    val_main_v42 (F := Ideal) x1 j = x1 (ix5 (j 0) (j 2) 5 (j 3) (j 4)) := by
  rw [val_main_v42_apply, val_main_v41_apply, val_main_v40_apply, val_main_v39_apply]
  wplane_idx

/-- Weight plane 6 broadcast over the groups, at `(b, g, cg, h, w)`, is the weights at `(b, cg, 6, h, w)`:
    a slice of plane 6, the unit axis dropped, then repeated along the group axis. -/
theorem weight6 (x1 : (⟨S16x16x9x56x56, .f32⟩ : BufTy).Contents (Elt Ideal)) (j : S16x32x16x56x56.Idx) :
    val_main_v49 (F := Ideal) x1 j = x1 (ix5 (j 0) (j 2) 6 (j 3) (j 4)) := by
  rw [val_main_v49_apply, val_main_v48_apply, val_main_v47_apply, val_main_v46_apply]
  wplane_idx

/-- Weight plane 7 broadcast over the groups, at `(b, g, cg, h, w)`, is the weights at `(b, cg, 7, h, w)`:
    a slice of plane 7, the unit axis dropped, then repeated along the group axis. -/
theorem weight7 (x1 : (⟨S16x16x9x56x56, .f32⟩ : BufTy).Contents (Elt Ideal)) (j : S16x32x16x56x56.Idx) :
    val_main_v56 (F := Ideal) x1 j = x1 (ix5 (j 0) (j 2) 7 (j 3) (j 4)) := by
  rw [val_main_v56_apply, val_main_v55_apply, val_main_v54_apply, val_main_v53_apply]
  wplane_idx

/-- Weight plane 8 broadcast over the groups, at `(b, g, cg, h, w)`, is the weights at `(b, cg, 8, h, w)`:
    a slice of plane 8, the unit axis dropped, then repeated along the group axis. -/
theorem weight8 (x1 : (⟨S16x16x9x56x56, .f32⟩ : BufTy).Contents (Elt Ideal)) (j : S16x32x16x56x56.Idx) :
    val_main_v63 (F := Ideal) x1 j = x1 (ix5 (j 0) (j 2) 8 (j 3) (j 4)) := by
  rw [val_main_v63_apply, val_main_v62_apply, val_main_v61_apply, val_main_v60_apply]
  wplane_idx

/-! ## The nine products and their sum -/

/-- Product 0: the window shifted by `(0, 0)` times weight plane 0. -/
theorem prod0 (x0 : (⟨S16x512x56x56, .f32⟩ : BufTy).Contents (Elt Ideal)) (x1 : (⟨S16x16x9x56x56, .f32⟩ : BufTy).Contents (Elt Ideal))
    (j : S16x32x16x56x56.Idx) :
    val_main_v8 (F := Ideal) x0 x1 j = tap x0 x1 padValue (j 0) (j 1) (j 2) (j 3) (j 4) 0 0 0 :=
  congrArg₂ (· * ·)
    ((val_main_v3_apply x0 j).trans (pad_read x0 _ (j 0) (j 1) (j 2) (0 + (j 3).val) (0 + (j 4).val) rfl rfl rfl (by show (j 3).val = 0 + (j 3).val; omega) (by show (j 4).val = 0 + (j 4).val; omega)))
    (weight0 x1 j)

/-- Product 1: the window shifted by `(0, 1)` times weight plane 1. -/
theorem prod1 (x0 : (⟨S16x512x56x56, .f32⟩ : BufTy).Contents (Elt Ideal)) (x1 : (⟨S16x16x9x56x56, .f32⟩ : BufTy).Contents (Elt Ideal))
    (j : S16x32x16x56x56.Idx) :
    val_main_v15 (F := Ideal) x0 x1 j = tap x0 x1 padValue (j 0) (j 1) (j 2) (j 3) (j 4) 0 1 1 :=
  congrArg₂ (· * ·)
    ((val_main_v10_apply x0 j).trans (pad_read x0 _ (j 0) (j 1) (j 2) (0 + (j 3).val) (1 + (j 4).val) rfl rfl rfl (by show (j 3).val = 0 + (j 3).val; omega) rfl))
    (weight1 x1 j)

/-- Product 2: the window shifted by `(0, 2)` times weight plane 2. -/
theorem prod2 (x0 : (⟨S16x512x56x56, .f32⟩ : BufTy).Contents (Elt Ideal)) (x1 : (⟨S16x16x9x56x56, .f32⟩ : BufTy).Contents (Elt Ideal))
    (j : S16x32x16x56x56.Idx) :
    val_main_v22 (F := Ideal) x0 x1 j = tap x0 x1 padValue (j 0) (j 1) (j 2) (j 3) (j 4) 0 2 2 :=
  congrArg₂ (· * ·)
    ((val_main_v17_apply x0 j).trans (pad_read x0 _ (j 0) (j 1) (j 2) (0 + (j 3).val) (2 + (j 4).val) rfl rfl rfl (by show (j 3).val = 0 + (j 3).val; omega) rfl))
    (weight2 x1 j)

/-- Product 3: the window shifted by `(1, 0)` times weight plane 3. -/
theorem prod3 (x0 : (⟨S16x512x56x56, .f32⟩ : BufTy).Contents (Elt Ideal)) (x1 : (⟨S16x16x9x56x56, .f32⟩ : BufTy).Contents (Elt Ideal))
    (j : S16x32x16x56x56.Idx) :
    val_main_v29 (F := Ideal) x0 x1 j = tap x0 x1 padValue (j 0) (j 1) (j 2) (j 3) (j 4) 1 0 3 :=
  congrArg₂ (· * ·)
    ((val_main_v24_apply x0 j).trans (pad_read x0 _ (j 0) (j 1) (j 2) (1 + (j 3).val) (0 + (j 4).val) rfl rfl rfl rfl (by show (j 4).val = 0 + (j 4).val; omega)))
    (weight3 x1 j)

/-- Product 4: the window shifted by `(1, 1)` times weight plane 4. -/
theorem prod4 (x0 : (⟨S16x512x56x56, .f32⟩ : BufTy).Contents (Elt Ideal)) (x1 : (⟨S16x16x9x56x56, .f32⟩ : BufTy).Contents (Elt Ideal))
    (j : S16x32x16x56x56.Idx) :
    val_main_v36 (F := Ideal) x0 x1 j = tap x0 x1 padValue (j 0) (j 1) (j 2) (j 3) (j 4) 1 1 4 :=
  congrArg₂ (· * ·)
    ((val_main_v31_apply x0 j).trans (pad_read x0 _ (j 0) (j 1) (j 2) (1 + (j 3).val) (1 + (j 4).val) rfl rfl rfl rfl rfl))
    (weight4 x1 j)

/-- Product 5: the window shifted by `(1, 2)` times weight plane 5. -/
theorem prod5 (x0 : (⟨S16x512x56x56, .f32⟩ : BufTy).Contents (Elt Ideal)) (x1 : (⟨S16x16x9x56x56, .f32⟩ : BufTy).Contents (Elt Ideal))
    (j : S16x32x16x56x56.Idx) :
    val_main_v43 (F := Ideal) x0 x1 j = tap x0 x1 padValue (j 0) (j 1) (j 2) (j 3) (j 4) 1 2 5 :=
  congrArg₂ (· * ·)
    ((val_main_v38_apply x0 j).trans (pad_read x0 _ (j 0) (j 1) (j 2) (1 + (j 3).val) (2 + (j 4).val) rfl rfl rfl rfl rfl))
    (weight5 x1 j)

/-- Product 6: the window shifted by `(2, 0)` times weight plane 6. -/
theorem prod6 (x0 : (⟨S16x512x56x56, .f32⟩ : BufTy).Contents (Elt Ideal)) (x1 : (⟨S16x16x9x56x56, .f32⟩ : BufTy).Contents (Elt Ideal))
    (j : S16x32x16x56x56.Idx) :
    val_main_v50 (F := Ideal) x0 x1 j = tap x0 x1 padValue (j 0) (j 1) (j 2) (j 3) (j 4) 2 0 6 :=
  congrArg₂ (· * ·)
    ((val_main_v45_apply x0 j).trans (pad_read x0 _ (j 0) (j 1) (j 2) (2 + (j 3).val) (0 + (j 4).val) rfl rfl rfl rfl (by show (j 4).val = 0 + (j 4).val; omega)))
    (weight6 x1 j)

/-- Product 7: the window shifted by `(2, 1)` times weight plane 7. -/
theorem prod7 (x0 : (⟨S16x512x56x56, .f32⟩ : BufTy).Contents (Elt Ideal)) (x1 : (⟨S16x16x9x56x56, .f32⟩ : BufTy).Contents (Elt Ideal))
    (j : S16x32x16x56x56.Idx) :
    val_main_v57 (F := Ideal) x0 x1 j = tap x0 x1 padValue (j 0) (j 1) (j 2) (j 3) (j 4) 2 1 7 :=
  congrArg₂ (· * ·)
    ((val_main_v52_apply x0 j).trans (pad_read x0 _ (j 0) (j 1) (j 2) (2 + (j 3).val) (1 + (j 4).val) rfl rfl rfl rfl rfl))
    (weight7 x1 j)

/-- Product 8: the window shifted by `(2, 2)` times weight plane 8. -/
theorem prod8 (x0 : (⟨S16x512x56x56, .f32⟩ : BufTy).Contents (Elt Ideal)) (x1 : (⟨S16x16x9x56x56, .f32⟩ : BufTy).Contents (Elt Ideal))
    (j : S16x32x16x56x56.Idx) :
    val_main_v64 (F := Ideal) x0 x1 j = tap x0 x1 padValue (j 0) (j 1) (j 2) (j 3) (j 4) 2 2 8 :=
  congrArg₂ (· * ·)
    ((val_main_v59_apply x0 j).trans (pad_read x0 _ (j 0) (j 1) (j 2) (2 + (j 3).val) (2 + (j 4).val) rfl rfl rfl rfl rfl))
    (weight8 x1 j)

/-- The array the sum starts from is `zero` everywhere. -/
theorem start_read (j : S16x32x16x56x56.Idx) : val_main_v2 (F := Ideal) j = zero := by
  rw [val_main_v2_apply]; rfl

/-- The reference's sum at `(b, g, cg, h, w)` is the specification's: the same nine terms added in the same order. -/
theorem sum_read (x0 : (⟨S16x512x56x56, .f32⟩ : BufTy).Contents (Elt Ideal)) (x1 : (⟨S16x16x9x56x56, .f32⟩ : BufTy).Contents (Elt Ideal))
    (j : S16x32x16x56x56.Idx) :
    val_main_v65 (F := Ideal) x0 x1 j = core x0 x1 padValue zero (j 0) (j 1) (j 2) (j 3) (j 4) :=
  congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (start_read j) (prod0 x0 x1 j)) (prod1 x0 x1 j)) (prod2 x0 x1 j))
    (prod3 x0 x1 j)) (prod4 x0 x1 j)) (prod5 x0 x1 j)) (prod6 x0 x1 j)) (prod7 x0 x1 j)) (prod8 x0 x1 j)

/-- THE REFERENCE'S RESULT is the specification: laying the 32 × 16 channels back into 512 reads entry
    `(b, c, h, w)` at group `c / 16`, channel-in-group `c % 16`. -/
theorem result_eq (x0 : (⟨S16x512x56x56, .f32⟩ : BufTy).Contents (Elt Ideal)) (x1 : (⟨S16x16x9x56x56, .f32⟩ : BufTy).Contents (Elt Ideal)) :
    val_main_v66 (F := Ideal) x0 x1 = out x0 x1 padValue zero := by
  funext i
  rw [val_main_v66_apply, sum_read]
  unfold out
  have h0 : (i 0).val < 16 := (i 0).isLt
  have h1 : (i 1).val < 512 := (i 1).isLt
  have h2 : (i 2).val < 56 := (i 2).isLt
  have h3 : (i 3).val < 56 := (i 3).isLt
  congr 1
  · exact Fin.ext (by show ((((i 0).val * 512 + (i 1).val) * 56 + (i 2).val) * 56 + (i 3).val) / 1605632 = (i 0).val; omega)
  · exact Fin.ext (by show ((((i 0).val * 512 + (i 1).val) * 56 + (i 2).val) * 56 + (i 3).val) / 50176 % 32 = (i 1).val / 16; omega)
  · exact Fin.ext (by show ((((i 0).val * 512 + (i 1).val) * 56 + (i 2).val) * 56 + (i 3).val) / 3136 % 16 = (i 1).val % 16; omega)
  · exact Fin.ext (by show ((((i 0).val * 512 + (i 1).val) * 56 + (i 2).val) * 56 + (i 3).val) / 56 % 56 = (i 2).val; omega)
  · exact Fin.ext (by show ((((i 0).val * 512 + (i 1).val) * 56 + (i 2).val) * 56 + (i 3).val) % 56 = (i 3).val; omega)

end Cert.RefSide

end
-- ==== Proof.lean ====
/-
  The certificate: a per-pixel 3 × 3 weighted sum of zero-padded planes, as a pipelined kernel and as array
  operations, are the same function of the arguments on the extended reals.

  Both programs compute, at batch `b`, channel `c = 16·g + cg` and pixel `(h, w)`,
      zero + P[b, c, 0 + h, 0 + w]·wt[b, cg, 0, h, w] + P[b, c, 0 + h, 1 + w]·wt[b, cg, 1, h, w] + … + P[b, c, 2 + h, 2 + w]·wt[b, cg, 8, h, w]
  (`Spec.out`), with `P` the plane `x[b, c]` inside one ring of the padding value and the nine terms added left to
  right: the kernel 16 channels at a time in a loop over the groups of a 256-channel block (the ring by four
  concatenations), the reference on the whole array regrouped as 32 × 16 channels (the ring by one pad).  The
  two sides are the same expression term by term, so no law of the extended reals is needed and the
  precondition is not used.

  The kernel's frame: its loop's pieces are stated in closed form (IdealTrips / BitsTrips) and the frame run
  follows from them (IdealRunA, IdealFrame, IdealValue and BitsRunA, BitsFrame); the kernel's value is read
  off that run (KPay, KBlock, KArray), the reference's off its run (RefSide).
-/
import proofs.«176877_j1013612282168_2_alg».proof.Defs
import proofs.«176877_j1013612282168_2_alg».proof.Proof.Gen.Kernel
import proofs.«176877_j1013612282168_2_alg».proof.Proof.Gen.KernelIdeal
import proofs.«176877_j1013612282168_2_alg».proof.Proof.Gen.ReferenceIdeal
import proofs.«176877_j1013612282168_2_alg».proof.Proof.Gen.Pre_finite_inputs
import proofs.«176877_j1013612282168_2_alg».proof.Proof.Gen.ReferenceIdeal.Run
import proofs.«176877_j1013612282168_2_alg».proof.Proof.Gen.ReferenceIdeal.Read
import proofs.«176877_j1013612282168_2_alg».proof.Proof.BitsFrame
import proofs.«176877_j1013612282168_2_alg».proof.Proof.KArray
import proofs.«176877_j1013612282168_2_alg».proof.Proof.RefSide
import Idealize.ShloMosaic.Adequacy
import Idealize.ShloMosaic.Init

noncomputable section

namespace Cert.Proof

open Idealize.ShloMosaic Idealize.ShloMosaic.TcCoe Idealize.SL.Sem Cert.Spec

/-- The word-level kernel runs and leaves its arguments unchanged. -/
theorem frame_k : Cert.frame_Kernel := fun m ρ _ => Cert.Kernel.GenP.frame m ρ

/-- The idealized kernel runs and leaves its arguments unchanged. -/
theorem frame_ki : Cert.frame_KernelIdeal := fun m ρ _ => Cert.KernelIdeal.GenP.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the specification of the (agreeing) arguments. -/
theorem algebraic : Cert.algebraic_KernelIdeal_ReferenceIdeal := by
  intro m ρ m' ρ' _ hagree
  refine ⟨fun c => out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) padValue zero,
    Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.RefSide.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
